-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x128 : Shape := ⟨2, ![1048576, 128]⟩
abbrev S128x1 : Shape := ⟨2, ![128, 1]⟩
abbrev S1 : Shape := ⟨1, ![1]⟩
abbrev S129x1 : Shape := ⟨2, ![129, 1]⟩
abbrev S1x1 : Shape := ⟨2, ![1, 1]⟩
abbrev S2x1 : Shape := ⟨2, ![2, 1]⟩
abbrev S_ : Shape := ⟨0, ![]⟩

class Facts : Prop where
  bcast_S_S1048576x128 : S_.BroadcastsInDim S1048576x128 (![] : Fin 0 → Fin S1048576x128.rank)
  reducesTo_S1048576x128_S_d0_1 : S1048576x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S129x1 : S_.BroadcastsInDim S129x1 (![] : Fin 0 → Fin S129x1.rank)
  reducesTo_S129x1_S_d0_1 : S129x1.ReducesTo [0, 1] S_
  bcast_S_S1x1 : S_.BroadcastsInDim S1x1 (![] : Fin 0 → Fin S1x1.rank)
  reducesTo_S1x1_S_d0_1 : S1x1.ReducesTo [0, 1] S_
  bcast_S_S2x1 : S_.BroadcastsInDim S2x1 (![] : Fin 0 → Fin S2x1.rank)
  reducesTo_S2x1_S_d0_1 : S2x1.ReducesTo [0, 1] S_

variable [Facts]

def fn_part4 {F : FTy → Type} [FloatOps F] (main_arg14 : FVec F S2x1 .f32) (main_v63 : IVec S_ 1) (main_v67 : IVec S_ 1) : IVec S_ 1 :=
  let main_v68 : IVec S_ 1 := andi main_v63 main_v67
  let main_v69 : FVec F S2x1 .f32 := Host.absf main_arg14
  let main_cst_26 : FVec F S_ .f32 := constant S_ .f32 0x7F800000#32
  let main_v70 : FVec F S2x1 .f32 := broadcastInDim S2x1 ![] bcast_S_S2x1 main_cst_26
  let main_v71 : IVec S2x1 1 := cmpf .olt main_v69 main_v70
  let main_c_27 : IVec S_ 1 := constantI S_ 1 1#1
  let main_v72 : IVec S_ 1 := (fun x v => Host.reduce IntOp.andi x v reducesTo_S2x1_S_d0_1 h_S_) main_v71 main_c_27
  let main_v73 : IVec S_ 1 := andi main_v68 main_v72
  main_v73

def fn_part3 {F : FTy → Type} [FloatOps F] (main_arg11 : FVec F S1x1 .f32) (main_arg12 : FVec F S2x1 .f32) (main_arg13 : FVec F S1x1 .f32) (main_arg14 : FVec F S2x1 .f32) (main_v48 : IVec S_ 1) (main_v49 : FVec F S2x1 .f32) (main_v50 : FVec F S2x1 .f32) : IVec S_ 1 :=
  let main_v51 : IVec S2x1 1 := cmpf .olt main_v49 main_v50
  let main_c_19 : IVec S_ 1 := constantI S_ 1 1#1
  let main_v52 : IVec S_ 1 := (fun x v => Host.reduce IntOp.andi x v reducesTo_S2x1_S_d0_1 h_S_) main_v51 main_c_19
  let main_v53 : IVec S_ 1 := andi main_v48 main_v52
  let main_v54 : FVec F S1x1 .f32 := Host.absf main_arg11
  let main_cst_20 : FVec F S_ .f32 := constant S_ .f32 0x7F800000#32
  let main_v55 : FVec F S1x1 .f32 := broadcastInDim S1x1 ![] bcast_S_S1x1 main_cst_20
  let main_v56 : IVec S1x1 1 := cmpf .olt main_v54 main_v55
  let main_c_21 : IVec S_ 1 := constantI S_ 1 1#1
  let main_v57 : IVec S_ 1 := (fun x v => Host.reduce IntOp.andi x v reducesTo_S1x1_S_d0_1 h_S_) main_v56 main_c_21
  let main_v58 : IVec S_ 1 := andi main_v53 main_v57
  let main_v59 : FVec F S2x1 .f32 := Host.absf main_arg12
  let main_cst_22 : FVec F S_ .f32 := constant S_ .f32 0x7F800000#32
  let main_v60 : FVec F S2x1 .f32 := broadcastInDim S2x1 ![] bcast_S_S2x1 main_cst_22
  let main_v61 : IVec S2x1 1 := cmpf .olt main_v59 main_v60
  let main_c_23 : IVec S_ 1 := constantI S_ 1 1#1
  let main_v62 : IVec S_ 1 := (fun x v => Host.reduce IntOp.andi x v reducesTo_S2x1_S_d0_1 h_S_) main_v61 main_c_23
  let main_v63 : IVec S_ 1 := andi main_v58 main_v62
  let main_v64 : FVec F S1x1 .f32 := Host.absf main_arg13
  let main_cst_24 : FVec F S_ .f32 := constant S_ .f32 0x7F800000#32
  let main_v65 : FVec F S1x1 .f32 := broadcastInDim S1x1 ![] bcast_S_S1x1 main_cst_24
  let main_v66 : IVec S1x1 1 := cmpf .olt main_v64 main_v65
  let main_c_25 : IVec S_ 1 := constantI S_ 1 1#1
  let main_v67 : IVec S_ 1 := (fun x v => Host.reduce IntOp.andi x v reducesTo_S1x1_S_d0_1 h_S_) main_v66 main_c_25
  fn_part4 (F := F) main_arg14 main_v63 main_v67

def fn_part2 {F : FTy → Type} [FloatOps F] (main_arg7 : FVec F S1x1 .f32) (main_arg8 : FVec F S2x1 .f32) (main_arg9 : FVec F S1x1 .f32) (main_arg10 : FVec F S2x1 .f32) (main_arg11 : FVec F S1x1 .f32) (main_arg12 : FVec F S2x1 .f32) (main_arg13 : FVec F S1x1 .f32) (main_arg14 : FVec F S2x1 .f32) (main_v33 : IVec S_ 1) : IVec S_ 1 :=
  let main_v34 : FVec F S1x1 .f32 := Host.absf main_arg7
  let main_cst_12 : FVec F S_ .f32 := constant S_ .f32 0x7F800000#32
  let main_v35 : FVec F S1x1 .f32 := broadcastInDim S1x1 ![] bcast_S_S1x1 main_cst_12
  let main_v36 : IVec S1x1 1 := cmpf .olt main_v34 main_v35
  let main_c_13 : IVec S_ 1 := constantI S_ 1 1#1
  let main_v37 : IVec S_ 1 := (fun x v => Host.reduce IntOp.andi x v reducesTo_S1x1_S_d0_1 h_S_) main_v36 main_c_13
  let main_v38 : IVec S_ 1 := andi main_v33 main_v37
  let main_v39 : FVec F S2x1 .f32 := Host.absf main_arg8
  let main_cst_14 : FVec F S_ .f32 := constant S_ .f32 0x7F800000#32
  let main_v40 : FVec F S2x1 .f32 := broadcastInDim S2x1 ![] bcast_S_S2x1 main_cst_14
  let main_v41 : IVec S2x1 1 := cmpf .olt main_v39 main_v40
  let main_c_15 : IVec S_ 1 := constantI S_ 1 1#1
  let main_v42 : IVec S_ 1 := (fun x v => Host.reduce IntOp.andi x v reducesTo_S2x1_S_d0_1 h_S_) main_v41 main_c_15
  let main_v43 : IVec S_ 1 := andi main_v38 main_v42
  let main_v44 : FVec F S1x1 .f32 := Host.absf main_arg9
  let main_cst_16 : FVec F S_ .f32 := constant S_ .f32 0x7F800000#32
  let main_v45 : FVec F S1x1 .f32 := broadcastInDim S1x1 ![] bcast_S_S1x1 main_cst_16
  let main_v46 : IVec S1x1 1 := cmpf .olt main_v44 main_v45
  let main_c_17 : IVec S_ 1 := constantI S_ 1 1#1
  let main_v47 : IVec S_ 1 := (fun x v => Host.reduce IntOp.andi x v reducesTo_S1x1_S_d0_1 h_S_) main_v46 main_c_17
  let main_v48 : IVec S_ 1 := andi main_v43 main_v47
  let main_v49 : FVec F S2x1 .f32 := Host.absf main_arg10
  let main_cst_18 : FVec F S_ .f32 := constant S_ .f32 0x7F800000#32
  let main_v50 : FVec F S2x1 .f32 := broadcastInDim S2x1 ![] bcast_S_S2x1 main_cst_18
  fn_part3 (F := F) main_arg11 main_arg12 main_arg13 main_arg14 main_v48 main_v49 main_v50

def fn_part1 {F : FTy → Type} [FloatOps F] (main_arg4 : FVec F S1 .f32) (main_arg5 : FVec F S1x1 .f32) (main_arg6 : FVec F S2x1 .f32) (main_arg7 : FVec F S1x1 .f32) (main_arg8 : FVec F S2x1 .f32) (main_arg9 : FVec F S1x1 .f32) (main_arg10 : FVec F S2x1 .f32) (main_arg11 : FVec F S1x1 .f32) (main_arg12 : FVec F S2x1 .f32) (main_arg13 : FVec F S1x1 .f32) (main_arg14 : FVec F S2x1 .f32) (main_v13 : IVec S_ 1) (main_v16 : IVec S129x1 1) : IVec S_ 1 :=
  let main_c_5 : IVec S_ 1 := constantI S_ 1 1#1
  let main_v17 : IVec S_ 1 := (fun x v => Host.reduce IntOp.andi x v reducesTo_S129x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S2x1 .f32 := Host.absf main_arg6
  let main_cst_10 : FVec F S_ .f32 := constant S_ .f32 0x7F800000#32
  let main_v30 : FVec F S2x1 .f32 := broadcastInDim S2x1 ![] bcast_S_S2x1 main_cst_10
  let main_v31 : IVec S2x1 1 := cmpf .olt main_v29 main_v30
  let main_c_11 : IVec S_ 1 := constantI S_ 1 1#1
  let main_v32 : IVec S_ 1 := (fun x v => Host.reduce IntOp.andi x v reducesTo_S2x1_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S1048576x128 .f32) (main_arg1 : FVec F S128x1 .f32) (main_arg2 : FVec F S1 .f32) (main_arg3 : FVec F S129x1 .f32) (main_arg4 : FVec F S1 .f32) (main_arg5 : FVec F S1x1 .f32) (main_arg6 : FVec F S2x1 .f32) (main_arg7 : FVec F S1x1 .f32) (main_arg8 : FVec F S2x1 .f32) (main_arg9 : FVec F S1x1 .f32) (main_arg10 : FVec F S2x1 .f32) (main_arg11 : FVec F S1x1 .f32) (main_arg12 : FVec F S2x1 .f32) (main_arg13 : FVec F S1x1 .f32) (main_arg14 : FVec F S2x1 .f32) : IVec S_ 1 :=
  let main_v0 : FVec F S1048576x128 .f32 := Host.absf main_arg0
  let main_cst : FVec F S_ .f32 := constant S_ .f32 0x7F800000#32
  let main_v1 : FVec F S1048576x128 .f32 := broadcastInDim S1048576x128 ![] bcast_S_S1048576x128 main_cst
  let main_v2 : IVec S1048576x128 1 := cmpf .olt main_v0 main_v1
  let main_c : IVec S_ 1 := constantI S_ 1 1#1
  let main_v3 : IVec S_ 1 := (fun x v => Host.reduce IntOp.andi x v reducesTo_S1048576x128_S_d0_1 h_S_) main_v2 main_c
  let main_v4 : FVec F S128x1 .f32 := Host.absf main_arg1
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S129x1 .f32 := Host.absf main_arg3
  let main_cst_4 : FVec F S_ .f32 := constant S_ .f32 0x7F800000#32
  let main_v15 : FVec F S129x1 .f32 := broadcastInDim S129x1 ![] bcast_S_S129x1 main_cst_4
  let main_v16 : IVec S129x1 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S1048576x128 : Shape := ⟨2, ![1048576, 128]⟩
abbrev S128x1 : Shape := ⟨2, ![128, 1]⟩
abbrev S1 : Shape := ⟨1, ![1]⟩
abbrev S129x1 : Shape := ⟨2, ![129, 1]⟩
abbrev S1x1 : Shape := ⟨2, ![1, 1]⟩
abbrev S2x1 : Shape := ⟨2, ![2, 1]⟩
abbrev S1x128 : Shape := ⟨2, ![1, 128]⟩
abbrev S1x16 : Shape := ⟨2, ![1, 16]⟩
abbrev S1x2 : Shape := ⟨2, ![1, 2]⟩
abbrev S1x18 : Shape := ⟨2, ![1, 18]⟩
abbrev S1048576x1 : Shape := ⟨2, ![1048576, 1]⟩
abbrev S4096x128 : Shape := ⟨2, ![4096, 128]⟩
abbrev S4096x1 : Shape := ⟨2, ![4096, 1]⟩
abbrev S4096 : Shape := ⟨1, ![4096]⟩

abbrev nBuf : Space → Nat
  | .hbm => 35
  | .vmem => 7
  | .smem => 0
  | _ => 0

abbrev bufTy : (tb : Table) → Fin (tcTables nBuf tb) → BufTy
  | .hbm, ⟨0, _⟩ => ⟨S1048576x128, .f32⟩
  | .hbm, ⟨1, _⟩ => ⟨S128x1, .f32⟩
  | .hbm, ⟨2, _⟩ => ⟨S1, .f32⟩
  | .hbm, ⟨3, _⟩ => ⟨S129x1, .f32⟩
  | .hbm, ⟨4, _⟩ => ⟨S1, .f32⟩
  | .hbm, ⟨5, _⟩ => ⟨S1x1, .f32⟩
  | .hbm, ⟨6, _⟩ => ⟨S2x1, .f32⟩
  | .hbm, ⟨7, _⟩ => ⟨S1x1, .f32⟩
  | .hbm, ⟨8, _⟩ => ⟨S2x1, .f32⟩
  | .hbm, ⟨9, _⟩ => ⟨S1x1, .f32⟩
  | .hbm, ⟨10, _⟩ => ⟨S2x1, .f32⟩
  | .hbm, ⟨11, _⟩ => ⟨S1x1, .f32⟩
  | .hbm, ⟨12, _⟩ => ⟨S2x1, .f32⟩
  | .hbm, ⟨13, _⟩ => ⟨S1x1, .f32⟩
  | .hbm, ⟨14, _⟩ => ⟨S2x1, .f32⟩
  | .hbm, ⟨15, _⟩ => ⟨S1x128, .f32⟩
  | .hbm, ⟨16, _⟩ => ⟨S128x1, .f32⟩
  | .hbm, ⟨17, _⟩ => ⟨S1x128, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .hbm, ⟨22, _⟩ => ⟨S1x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x16, .f32⟩
  | .hbm, ⟨32, _⟩ => ⟨S1x2, .f32⟩
  | .hbm, ⟨33, _⟩ => ⟨S1x18, .f32⟩
  | .hbm, ⟨34, _⟩ => ⟨S1048576x1, .f32⟩
  | .local _ .vmem, ⟨0, _⟩ => ⟨S4096x128, .f32⟩
  | .local _ .vmem, ⟨1, _⟩ => ⟨S4096x128, .f32⟩
  | .local _ .vmem, ⟨2, _⟩ => ⟨S1x128, .f32⟩
  | .local _ .vmem, ⟨3, _⟩ => ⟨S1x128, .f32⟩
  | .local _ .vmem, ⟨4, _⟩ => ⟨S1x18, .f32⟩
  | .local _ .vmem, ⟨5, _⟩ => ⟨S4096x1, .f32⟩
  | .local _ .vmem, ⟨6, _⟩ => ⟨S4096x1, .f32⟩
  | _, _ => ⟨S1048576x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x18 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S128x1_S1x128 : S128x1.ShapeCasts S1x128
  slices_S129x1_S128x1_0_0 : S129x1.Slices ![0, 0] S128x1
  slices_S129x1_S1x1_128_0 : S129x1.Slices ![128, 0] S1x1
  shapeCasts_S1_S1x1 : S1.ShapeCasts S1x1
  slices_S2x1_S1x1_0_0 : S2x1.Slices ![0, 0] S1x1
  slices_S2x1_S1x1_1_0 : S2x1.Slices ![1, 0] S1x1
  concatenates_S1x1_S1x1_S1x1_S1x1_S1x1_S1x1_S1x1_S1x1_S1x1_S1x1_S1x1_S1x1_S1x1_S1x1_S1x1_S1x1_S1x16_d1 : Shape.Concatenates [S1x1, S1x1, S1x1, S1x1, S1x1, S1x1, S1x1, S1x1, S1x1, S1x1, S1x1, S1x1, S1x1, S1x1, S1x1, S1x1] S1x16 1
  concatenates_S1x1_S1x1_S1x2_d1 : Shape.Concatenates [S1x1, S1x1] S1x2 1
  concatenates_S1x16_S1x2_S1x18_d1 : Shape.Concatenates [S1x16, S1x2] S1x18 1
  inb_S4096x128_S4096x128_0_0 : ∀ a, (![0, 0] : Fin 2 → Nat) a + S4096x128.size a ≤ S4096x128.size a
  h_S4096x128 : 0 < S4096x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x18_S1x18_0_0 : ∀ a, (![0, 0] : Fin 2 → Nat) a + S1x18.size a ≤ S1x18.size a
  h_S1x18 : 0 < S1x18.numel
  shapeCasts_S1x18_S1x18 : S1x18.ShapeCasts S1x18
  slices_S1x18_o0_0_S1x1 : S1x18.Slices ![0, 0] S1x1
  inpos_S1x1_p0_0 : ∀ a, (![0, 0] : Fin 2 → Nat) a < S1x1.size a
  slices_S1x18_o0_1_S1x1 : S1x18.Slices ![0, 1] S1x1
  slices_S1x18_o0_2_S1x1 : S1x18.Slices ![0, 2] S1x1
  slices_S1x18_o0_3_S1x1 : S1x18.Slices ![0, 3] S1x1
  slices_S1x18_o0_4_S1x1 : S1x18.Slices ![0, 4] S1x1
  slices_S1x18_o0_5_S1x1 : S1x18.Slices ![0, 5] S1x1
  slices_S1x18_o0_6_S1x1 : S1x18.Slices ![0, 6] S1x1
  slices_S1x18_o0_7_S1x1 : S1x18.Slices ![0, 7] S1x1
  slices_S1x18_o0_8_S1x1 : S1x18.Slices ![0, 8] S1x1
  slices_S1x18_o0_9_S1x1 : S1x18.Slices ![0, 9] S1x1
  slices_S1x18_o0_10_S1x1 : S1x18.Slices ![0, 10] S1x1
  slices_S1x18_o0_11_S1x1 : S1x18.Slices ![0, 11] S1x1
  slices_S1x18_o0_12_S1x1 : S1x18.Slices ![0, 12] S1x1
  slices_S1x18_o0_13_S1x1 : S1x18.Slices ![0, 13] S1x1
  slices_S1x18_o0_14_S1x1 : S1x18.Slices ![0, 14] S1x1
  slices_S1x18_o0_15_S1x1 : S1x18.Slices ![0, 15] S1x1
  slices_S1x18_o0_16_S1x1 : S1x18.Slices ![0, 16] S1x1
  slices_S1x18_o0_17_S1x1 : S1x18.Slices ![0, 17] S1x1
  broadcasts_S1x128_S4096x128 : S1x128.Broadcasts S4096x128
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S1048576x128.size a
  hwx0_0 : ∀ i : grid0.Coords, EltTy.bits .f32 = 32 ∨ (Rect.block (s := S1048576x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x18.size a ≤ S1x18.size a
  hwx0_3 : ∀ i : grid0.Coords, EltTy.bits .f32 = 32 ∨ (Rect.block (s := S1x18) S1x18.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S1048576x1.size a
  hwx0_4 : ∀ i : grid0.Coords, EltTy.bits .f32 = 32 ∨ (Rect.block (s := S1048576x1) S4096x1.size (cc0_transform_4 i) (hinb0_4 i)).WholeWords (EltTy.packing .f32)

variable [Facts₀]

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x18.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S4096x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x128 : Shape := ⟨2, ![1048576, 128]⟩
abbrev S128x1 : Shape := ⟨2, ![128, 1]⟩
abbrev S1 : Shape := ⟨1, ![1]⟩
abbrev S129x1 : Shape := ⟨2, ![129, 1]⟩
abbrev S1x1 : Shape := ⟨2, ![1, 1]⟩
abbrev S2x1 : Shape := ⟨2, ![2, 1]⟩
abbrev S1048576x1 : Shape := ⟨2, ![1048576, 1]⟩
abbrev S1048576x129 : Shape := ⟨2, ![1048576, 129]⟩
abbrev S_ : Shape := ⟨0, ![]⟩
abbrev S1048576x2 : Shape := ⟨2, ![1048576, 2]⟩

abbrev nBuf : Space → Nat
  | .hbm => 73
  | .vmem => 0
  | .smem => 0
  | _ => 0

abbrev bufTy : (tb : Table) → Fin (tcTables nBuf tb) → BufTy
  | .hbm, ⟨0, _⟩ => ⟨S1048576x128, .f32⟩
  | .hbm, ⟨1, _⟩ => ⟨S128x1, .f32⟩
  | .hbm, ⟨2, _⟩ => ⟨S1, .f32⟩
  | .hbm, ⟨3, _⟩ => ⟨S129x1, .f32⟩
  | .hbm, ⟨4, _⟩ => ⟨S1, .f32⟩
  | .hbm, ⟨5, _⟩ => ⟨S1x1, .f32⟩
  | .hbm, ⟨6, _⟩ => ⟨S2x1, .f32⟩
  | .hbm, ⟨7, _⟩ => ⟨S1x1, .f32⟩
  | .hbm, ⟨8, _⟩ => ⟨S2x1, .f32⟩
  | .hbm, ⟨9, _⟩ => ⟨S1x1, .f32⟩
  | .hbm, ⟨10, _⟩ => ⟨S2x1, .f32⟩
  | .hbm, ⟨11, _⟩ => ⟨S1x1, .f32⟩
  | .hbm, ⟨12, _⟩ => ⟨S2x1, .f32⟩
  | .hbm, ⟨13, _⟩ => ⟨S1x1, .f32⟩
  | .hbm, ⟨14, _⟩ => ⟨S2x1, .f32⟩
  | .hbm, ⟨15, _⟩ => ⟨S1048576x128, .f32⟩
  | .hbm, ⟨16, _⟩ => ⟨S1048576x128, .f32⟩
  | .hbm, ⟨17, _⟩ => ⟨S1048576x1, .f32⟩
  | .hbm, ⟨18, _⟩ => ⟨S1x1, .f32⟩
  | .hbm, ⟨19, _⟩ => ⟨S1048576x1, .f32⟩
  | .hbm, ⟨20, _⟩ => ⟨S1048576x1, .f32⟩
  | .hbm, ⟨21, _⟩ => ⟨S1048576x1, .f32⟩
  | .hbm, ⟨22, _⟩ => ⟨S1048576x129, .f32⟩
  | .hbm, ⟨23, _⟩ => ⟨S1048576x1, .f32⟩
  | .hbm, ⟨24, _⟩ => ⟨S1x1, .f32⟩
  | .hbm, ⟨25, _⟩ => ⟨S1048576x1, .f32⟩
  | .hbm, ⟨26, _⟩ => ⟨S1048576x1, .f32⟩
  | .hbm, ⟨27, _⟩ => ⟨S1048576x1, .f32⟩
  | .hbm, ⟨28, _⟩ => ⟨S1048576x1, .f32⟩
  | .hbm, ⟨29, _⟩ => ⟨S_, .f32⟩
  | .hbm, ⟨30, _⟩ => ⟨S1048576x1, .f32⟩
  | .hbm, ⟨31, _⟩ => ⟨S1048576x1, .f32⟩
  | .hbm, ⟨32, _⟩ => ⟨S_, .f32⟩
  | .hbm, ⟨33, _⟩ => ⟨S1048576x1, .f32⟩
  | .hbm, ⟨34, _⟩ => ⟨S1048576x1, .f32⟩
  | .hbm, ⟨35, _⟩ => ⟨S1048576x2, .f32⟩
  | .hbm, ⟨36, _⟩ => ⟨S1048576x1, .f32⟩
  | .hbm, ⟨37, _⟩ => ⟨S1048576x1, .f32⟩
  | .hbm, ⟨38, _⟩ => ⟨S_, .f32⟩
  | .hbm, ⟨39, _⟩ => ⟨S1048576x1, .f32⟩
  | .hbm, ⟨40, _⟩ => ⟨S1048576x1, .f32⟩
  | .hbm, ⟨41, _⟩ => ⟨S_, .f32⟩
  | .hbm, ⟨42, _⟩ => ⟨S1048576x1, .f32⟩
  | .hbm, ⟨43, _⟩ => ⟨S1048576x1, .f32⟩
  | .hbm, ⟨44, _⟩ => ⟨S1048576x2, .f32⟩
  | .hbm, ⟨45, _⟩ => ⟨S1048576x1, .f32⟩
  | .hbm, ⟨46, _⟩ => ⟨S1048576x1, .f32⟩
  | .hbm, ⟨47, _⟩ => ⟨S_, .f32⟩
  | .hbm, ⟨48, _⟩ => ⟨S1048576x1, .f32⟩
  | .hbm, ⟨49, _⟩ => ⟨S1048576x1, .f32⟩
  | .hbm, ⟨50, _⟩ => ⟨S_, .f32⟩
  | .hbm, ⟨51, _⟩ => ⟨S1048576x1, .f32⟩
  | .hbm, ⟨52, _⟩ => ⟨S1048576x1, .f32⟩
  | .hbm, ⟨53, _⟩ => ⟨S1048576x2, .f32⟩
  | .hbm, ⟨54, _⟩ => ⟨S1048576x1, .f32⟩
  | .hbm, ⟨55, _⟩ => ⟨S1048576x1, .f32⟩
  | .hbm, ⟨56, _⟩ => ⟨S_, .f32⟩
  | .hbm, ⟨57, _⟩ => ⟨S1048576x1, .f32⟩
  | .hbm, ⟨58, _⟩ => ⟨S1048576x1, .f32⟩
  | .hbm, ⟨59, _⟩ => ⟨S_, .f32⟩
  | .hbm, ⟨60, _⟩ => ⟨S1048576x1, .f32⟩
  | .hbm, ⟨61, _⟩ => ⟨S1048576x1, .f32⟩
  | .hbm, ⟨62, _⟩ => ⟨S1048576x2, .f32⟩
  | .hbm, ⟨63, _⟩ => ⟨S1048576x1, .f32⟩
  | .hbm, ⟨64, _⟩ => ⟨S1048576x1, .f32⟩
  | .hbm, ⟨65, _⟩ => ⟨S_, .f32⟩
  | .hbm, ⟨66, _⟩ => ⟨S1048576x1, .f32⟩
  | .hbm, ⟨67, _⟩ => ⟨S1048576x1, .f32⟩
  | .hbm, ⟨68, _⟩ => ⟨S_, .f32⟩
  | .hbm, ⟨69, _⟩ => ⟨S1048576x1, .f32⟩
  | .hbm, ⟨70, _⟩ => ⟨S1048576x1, .f32⟩
  | .hbm, ⟨71, _⟩ => ⟨S1048576x2, .f32⟩
  | .hbm, ⟨72, _⟩ => ⟨S1048576x1, .f32⟩
  | _, _ => ⟨S1048576x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_cst : Ref sig .tc := ⟨.hbm, 41, rfl⟩
abbrev main_call1_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call2_cst : Ref sig .tc := ⟨.hbm, 50, rfl⟩
abbrev main_call2_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_call3_cst : Ref sig .tc := ⟨.hbm, 59, rfl⟩
abbrev main_call3_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call4_cst : Ref sig .tc := ⟨.hbm, 68, rfl⟩
abbrev main_call4_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  concatenates_S1048576x128_S1048576x1_S1048576x129_d1 : Shape.Concatenates [S1048576x128, S1048576x1] S1048576x129 1
  shapeCasts_S1x1_S_ : S1x1.ShapeCasts S_
  bcast_S_S1048576x1 : S_.BroadcastsInDim S1048576x1 (![] : Fin 0 → Fin S1048576x1.rank)
  concatenates_S1048576x1_S1048576x1_S1048576x2_d1 : Shape.Concatenates [S1048576x1, S1048576x1] S1048576x2 1
  dot_S1048576x128_S128x1_S1048576x1_1_0_0_1_n_n_wf : DotDims.WF S1048576x128 S128x1 S1048576x1 [1] [0] [0] [1] [] []
  dot_S1048576x129_S129x1_S1048576x1_1_0_0_1_n_n_wf : DotDims.WF S1048576x129 S129x1 S1048576x1 [1] [0] [0] [1] [] []
  dot_S1048576x2_S2x1_S1048576x1_1_0_0_1_n_n_wf : DotDims.WF S1048576x2 S2x1 S1048576x1 [1] [0] [0] [1] [] []

variable [Facts₀]

def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf
def dot_S1048576x129_S129x1_S1048576x1_1_0_0_1_n_n : DotDims S1048576x129 S129x1 S1048576x1 where
  lhsContracting := [1]
  rhsContracting := [0]
  lhsNonContracting := [0]
  rhsNonContracting := [1]
  lhsBatch := []
  rhsBatch := []
  wf := dot_S1048576x129_S129x1_S1048576x1_1_0_0_1_n_n_wf
def dot_S1048576x2_S2x1_S1048576x1_1_0_0_1_n_n : DotDims S1048576x2 S2x1 S1048576x1 where
  lhsContracting := [1]
  rhsContracting := [0]
  lhsNonContracting := [0]
  rhsNonContracting := [1]
  lhsBatch := []
  rhsBatch := []
  wf := dot_S1048576x2_S2x1_S1048576x1_1_0_0_1_n_n_wf

class Facts : Prop extends Facts₀ where

variable [Facts]
-- ==== Proof.BitsEntry.lean ====
/-
  The one region of @main, seen from outside: what the TensorCore's buffers hold when the region is entered, and
  what a run of the region gives back to the frame claim.

  Before the region @main runs nineteen host operations that only re-lay the small parameters: the two weight
  columns become rows of 128, and the eighteen scalars the body needs (the two biases, the last entry of the
  129-column, and per stage the gate weight and the two mixing weights) are sliced out and concatenated into one
  row of 18. None of them writes an argument, so each argument is, at the region's entry, what the launch put
  there. The region then walks 256 grid points; at point `t` it stages rows 4096·t … 4096·t + 4095 of the input
  (window 0), the two weight rows and the scalar row whole (windows 1–3, the same block at every point, moved once),
  and writes rows 4096·t … of the result back (window 4).
-/
import proofs.«161042_j43276090474801_1_alg».proof.Proof.Gen.Kernel.Launch
import proofs.«161042_j43276090474801_1_alg».proof.Proof.Gen.Kernel.Skeleton
import proofs.«161042_j43276090474801_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- Core `c`'s TensorCore buffers when the region is entered: the launch contents run through the host prefix. -/
abbrev atEntry (c : Dev nD) (b : Ref sig .tc) : Buf (Elt F) ((c : Thread nD τ).loc b) :=
  StableHlo.after hostOps0 (fun b => m (c, b)) b

/-- The host prefix allocates nothing. -/
theorem prefix_allocates_nothing : (hostOps0 : List (HloOp τ sig (Elt F))).Forall fun op => op.fresh = ∅ := by
  simp only [List.Forall]; repeat' constructor

/-- @main is its host prefix followed by the region, entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- No host operation before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 8: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 9: the region finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 10: the region finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 11: the region finds it as launched. -/
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 12: the region finds it as launched. -/
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 13: the region finds it as launched. -/
theorem atEntry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 14: the region finds it as launched. -/
theorem atEntry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, whether the pipeline fetched it there or
    not (an unfetched input's block index has not moved since the point before), for any proof data over the entry
    contents whose body leaves the block in place. -/
theorem holds_block0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, whether the pipeline fetched it there or
    not (an unfetched input's block index has not moved since the point before), for any proof data over the entry
    contents whose body leaves the block in place. -/
theorem holds_block1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, whether the pipeline fetched it there or
    not (an unfetched input's block index has not moved since the point before), for any proof data over the entry
    contents whose body leaves the block in place. -/
theorem holds_block2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, whether the pipeline fetched it there or
    not (an unfetched input's block index has not moved since the point before), for any proof data over the entry
    contents whose body leaves the block in place. -/
theorem holds_block3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region -/

/-- A run that ends with every window's array at what the proof data computes and every other unscoped buffer as
    the region found it leaves all fifteen arguments as launched: argument 0 is window 0's array, an input, so it
    ends at its entry contents; the other fourteen bypass the region; and the host prefix wrote none of them. -/
theorem unchanged_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).2 main_arg11 (Pipeline.mem_restRefs_of main_arg11 (by decide) (by decide))).trans (atEntry_arg11 m c),
      ((h c).2 main_arg12 (Pipeline.mem_restRefs_of main_arg12 (by decide) (by decide))).trans (atEntry_arg12 m c),
      ((h c).2 main_arg13 (Pipeline.mem_restRefs_of main_arg13 (by decide) (by decide))).trans (atEntry_arg13 m c),
      ((h c).2 main_arg14 (Pipeline.mem_restRefs_of main_arg14 (by decide) (by decide))).trans (atEntry_arg14 m c)⟩) h

end Cert.Kernel.Region

end
-- ==== Proof.BitsStored.lean ====
/-
  The column the kernel body stores at a grid point, as one term over the four blocks it loaded.

  Row `r` of what the body stores depends on row `r` of the input block only:

      p  = exp (Σₖ log|x r k| · wp k + s₀)                      (a product of powers, in log space)
      h₀ = (Σₖ x r k · ws k + p · s₁) + s₂                       (a linear form in the row and `p`)
      hⱼ₊₁ = max (fⱼ hⱼ · aⱼ, 0) · bⱼ + hⱼ · cⱼ                   for f = log|·|, sin, cos, exp, tanh

  with (aⱼ, bⱼ, cⱼ) the scalars 3j+3, 3j+4, 3j+5 of the row of eighteen; the stored entry is h₅. `stored` is that value
  with the generated skeleton's payloads composed as the body composes them.
-/
import proofs.«161042_j43276090474801_1_alg».proof.Proof.Gen.Kernel.Skeleton

noncomputable section

namespace Cert.Kernel.Region

open Cert.Kernel Cert.Kernel.Gen
open Idealize.ShloMosaic

variable {F : FTy → Type} [FloatOps F]

/-- The column the body stores, from the four blocks it loaded: `x` the input block, `wp` and `ws` the weight rows of
    the log-space product and of the linear form, `sc` the eighteen scalars. -/
def stored (x : Vec F S4096x128 .f32) (wp ws : Vec F S1x128 .f32) (sc : Vec F S1x18 .f32) : FVec F S4096x1 .f32 :=
  k0_pay1 (k0_pay19 sc) (k0_pay20 sc)
    (k0_pay23 x (k0_pay2 ws) (k0_pay4 sc) (k0_pay5 sc) (k0_pay6 sc) (k0_pay7 sc) (k0_pay8 sc) (k0_pay9 sc) (k0_pay10 sc) (k0_pay11 sc) (k0_pay12 sc) (k0_pay13 sc) (k0_pay14 sc) (k0_pay15 sc) (k0_pay16 sc) (k0_pay17 sc) (k0_pay21 x wp) (k0_pay22 sc))
    (k0_pay24 x (k0_pay2 ws) (k0_pay4 sc) (k0_pay5 sc) (k0_pay6 sc) (k0_pay7 sc) (k0_pay8 sc) (k0_pay9 sc) (k0_pay10 sc) (k0_pay11 sc) (k0_pay12 sc) (k0_pay13 sc) (k0_pay14 sc) (k0_pay15 sc) (k0_pay16 sc) (k0_pay17 sc) (k0_pay18 sc) (k0_pay21 x wp) (k0_pay22 sc))

end Cert.Kernel.Region

end
-- ==== Proof.BitsBody.lean ====
/-
  The kernel body on one block, as a separation-logic triple.

  At a grid point the body is handed five whole staging buffers: a 4096 × 128 block of the input, the two weight rows
  (1 × 128 each), the row of eighteen scalars, and the 4096 × 1 block of the result. It loads the four inputs whole,
  computes, loads the result buffer (a value it never uses) and overwrites the result buffer whole. Row `r` of what it
  stores depends on row `r` of the input block only:

      p  = exp (Σₖ log|x r k| · wp k + s₀)                      (a product of powers, in log space)
      h₀ = (Σₖ x r k · ws k + p · s₁) + s₂                       (a linear form in the row and `p`)
      hⱼ₊₁ = max (fⱼ hⱼ · aⱼ, 0) · bⱼ + hⱼ · cⱼ                   for f = log|·|, sin, cos, exp, tanh

  with (aⱼ, bⱼ, cⱼ) the scalars 3j+3, 3j+4, 3j+5; the stored entry is h₅. `stored` (stated in its own module) is that
  value as one term over the four loaded blocks, and the triple says the inputs' buffers are left as they were and the
  result's buffer ends holding `stored` everywhere.
-/
import proofs.«161042_j43276090474801_1_alg».proof.Proof.BitsEntry
import proofs.«161042_j43276090474801_1_alg».proof.Proof.BitsStored

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one is a whole buffer -/

abbrev wholeX : Rect S4096x128 := Rect.unit (s := S4096x128) ![0, 0] S4096x128.size inb_S4096x128_S4096x128_0_0
abbrev wholeRow : Rect S1x128 := Rect.unit (s := S1x128) ![0, 0] S1x128.size inb_S1x128_S1x128_0_0
abbrev wholeScalars : Rect S1x18 := Rect.unit (s := S1x18) ![0, 0] S1x18.size inb_S1x18_S1x18_0_0
abbrev wholeOut : Rect S4096x1 := Rect.unit (s := S4096x1) ![0, 0] S4096x1.size inb_S4096x1_S4096x1_0_0

/-! ## What the body leaves in the result's buffer -/

/-- The result's staging buffer after the body: its one store, over the loaded blocks. -/
def leftInOut (x0 : Vec F S4096x128 .f32) (x1 x2 : Vec F S1x128 .f32) (x3 : Vec F S1x18 .f32) : Vec F S4096x1 .f32 :=
  View.canon [⟨wholeOut, stored (View.ld x0 wholeX) (View.ld x1 wholeRow) (View.ld x2 wholeRow) (View.ld x3 wholeScalars)⟩]

/-- The one store covers the result's buffer. -/
theorem store_covers (p0 : Vec F S4096x1 .f32) (y : S4096x1.Idx) :
    ∃ pc ∈ ([⟨wholeOut, p0⟩] : List (View.Piece (Elt F) S4096x1 .f32)), y ∈ pc.1.set :=
  View.cover_of_tiled [⟨wholeOut, p0⟩] S4096x1.size (by rfl) y

/-! ## The body's triple -/

set_option maxHeartbeats 1000000 in
/-- On whole staging buffers, the inputs' at contents read as `x0 … x3` and the result's at anything, the body runs to
    its end, faults nowhere, leaves the inputs' buffers as they were and the result's at `leftInOut`. -/
theorem body_runs (c : Dev nD) (E : Set ℕ) (i : grid0.Coords)
    (a1 : Memref sig .tc .vmem S4096x128 .f32) (h1 : a1.IsWhole) (a2 : Memref sig .tc .vmem S1x128 .f32) (h2 : a2.IsWhole)
    (a3 : Memref sig .tc .vmem S1x128 .f32) (h3 : a3.IsWhole) (a4 : Memref sig .tc .vmem S1x18 .f32) (h4 : a4.IsWhole)
    (a5 : Memref sig .tc .vmem S4096x1 .f32) (h5 : a5.IsWhole)
    (x0 : Vec F S4096x128 .f32) (x1 x2 : Vec F S1x128 .f32) (x3 : Vec F S1x18 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (leftInOut x0 x1 x2 x3)) -∗ K ⟨⟩))
      ⊢ wp frame (wpE (defs₀ (F := F)) Variants.none c none) E (cc0__kernel i a1 h1 a2 h2 a3 h3 a4 h4 a5 h5) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (store_covers _)

end Cert.Kernel.Region

end
-- ==== Proof.BitsRun.lean ====
/-
  The region run point by point, and the frame.

  The proof data says what every staging buffer holds after the body at every grid point: an input window's buffer
  still holds its block of the entry contents (the body only loads it), and the result window's buffer holds the
  column the body stored, computed from the four input blocks of that point. Nothing is carried from one point to the
  next: each point's result depends on that point's blocks alone. With the body's triple at a generic point this is
  the pipeline's body obligation, and the library's frame run turns it into: every weakly fair execution of @main
  terminates without a fault, the result array ends at what the pipeline wrote back point by point, and every other
  unscoped buffer ends as the region found it.
-/
import proofs.«161042_j43276090474801_1_alg».proof.Proof.BitsBody

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the result's at the stored column of that point's blocks; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => leftInOut (blockAt m c 0 t) (blockAt m c 1 t) (blockAt m c 2 t) (blockAt m c 3 t)
  Φ _ := Pipeline.ΦA spec0 c
  q _ := fullShare
  owed _ := 0

/-- The proof data's arrays are the entry contents. -/
theorem arrays_at_entry (c : Dev nD) (w : Fin cfg0.W) : (dats m 0 c).A w = atEntry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_out (c : Dev nD) (t : Fin cfg0.N) :
    (dats m 0 c).after 4 t = leftInOut (blockAt m c 0 t) (blockAt m c 1 t) (blockAt m c 2 t) (blockAt m c 3 t) := by dsimp only [dats]

/-- Each input's current staging buffer holds its block at every point. -/
theorem before_in0 (c : Dev nD) (t : Fin cfg0.N) (d) : (dats m 0 c).before 0 t d = blockAt m c 0 t :=
  holds_block0 m (dats m 0 c) (arrays_at_entry m c 0) (after_in0 m c) t d
theorem before_in1 (c : Dev nD) (t : Fin cfg0.N) (d) : (dats m 0 c).before 1 t d = blockAt m c 1 t :=
  holds_block1 m (dats m 0 c) (arrays_at_entry m c 1) (after_in1 m c) t d
theorem before_in2 (c : Dev nD) (t : Fin cfg0.N) (d) : (dats m 0 c).before 2 t d = blockAt m c 2 t :=
  holds_block2 m (dats m 0 c) (arrays_at_entry m c 2) (after_in2 m c) t d
theorem before_in3 (c : Dev nD) (t : Fin cfg0.N) (d) : (dats m 0 c).before 3 t d = blockAt m c 3 t :=
  holds_block3 m (dats m 0 c) (arrays_at_entry m c 3) (after_in3 m c) t d

/-! ## The body obligation, at a generic point -/

/-- What the body is called with at point `t`, the windows one by one, -/
def atCall (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def atReturn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem point_runs (c : Dev nD) (t : Fin cfg0.N) :
    atCall m c t ⊢ wp frame (wpE (defs₀ (F := F)) Variants.none c none) Set.univ (bodyAt0 t) (fun _ => atReturn m c t) := by
  unfold atCall atReturn bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after_in0, after_in1, after_in2, after_in3, after_out]
  iintro ⟨HΦ, Ho, ⟨%d0, H0⟩, ⟨%d1, H1⟩, ⟨%d2, H2⟩, ⟨%d3, H3⟩, ⟨%d4, H4⟩⟩
  iapply (body_runs c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem every_point (c : Dev nD) : BodyObligation (dats (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of @main on the TensorCores terminates, nothing
    faulting, with every array of the pipeline at what the proof data computes and every other unscoped buffer as the
    region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := atEntry m) (hmain := main_to_region m Variants.none) (hA := arrays_at_entry m) (hΦ := fun _ _ => rfl)

/-- The frame, at any float instance: @main runs to its end and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  unchanged_of_run m ρ (dats m) (arrays_at_entry m) (run_main m ρ)

end Cert.Kernel.Region

end
-- ==== Proof.IdealEntry.lean ====
/-
  The one region of @main, seen from outside: what the TensorCore's buffers hold when the region is entered, and
  what a run of the region gives back to the frame claim.

  Before the region @main runs nineteen host operations that only re-lay the small parameters: the two weight
  columns become rows of 128, and the eighteen scalars the body needs (the two biases, the last entry of the
  129-column, and per stage the gate weight and the two mixing weights) are sliced out and concatenated into one
  row of 18. None of them writes an argument, so each argument is, at the region's entry, what the launch put
  there. The region then walks 256 grid points; at point `t` it stages rows 4096·t … 4096·t + 4095 of the input
  (window 0), the two weight rows and the scalar row whole (windows 1–3, the same block at every point, moved once),
  and writes rows 4096·t … of the result back (window 4).
-/
import proofs.«161042_j43276090474801_1_alg».proof.Proof.Gen.KernelIdeal.Launch
import proofs.«161042_j43276090474801_1_alg».proof.Proof.Gen.KernelIdeal.Skeleton
import proofs.«161042_j43276090474801_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers at the region's entry -/

/-- Core `c`'s TensorCore buffers when the region is entered: the launch contents run through the host prefix. -/
abbrev atEntry (c : Dev nD) (b : Ref sig .tc) : Buf (Elt F) ((c : Thread nD τ).loc b) :=
  StableHlo.after hostOps0 (fun b => m (c, b)) b

/-- The host prefix allocates nothing. -/
theorem prefix_allocates_nothing : (hostOps0 : List (HloOp τ sig (Elt F))).Forall fun op => op.fresh = ∅ := by
  simp only [List.Forall]; repeat' constructor

/-- @main is its host prefix followed by the region, entered at `atEntry`. -/
theorem main_to_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub prefix_allocates_nothing main_chain

/-- No host operation before the region writes argument 0: the region finds it as launched. -/
theorem atEntry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 1: the region finds it as launched. -/
theorem atEntry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 2: the region finds it as launched. -/
theorem atEntry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 3: the region finds it as launched. -/
theorem atEntry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 4: the region finds it as launched. -/
theorem atEntry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 5: the region finds it as launched. -/
theorem atEntry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 6: the region finds it as launched. -/
theorem atEntry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 7: the region finds it as launched. -/
theorem atEntry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 8: the region finds it as launched. -/
theorem atEntry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 9: the region finds it as launched. -/
theorem atEntry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 10: the region finds it as launched. -/
theorem atEntry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 11: the region finds it as launched. -/
theorem atEntry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 12: the region finds it as launched. -/
theorem atEntry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 13: the region finds it as launched. -/
theorem atEntry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))
/-- No host operation before the region writes argument 14: the region finds it as launched. -/
theorem atEntry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.binary_writes, StableHlo.reshape_writes,
      StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- Input window 0's current staging buffer holds its block at every point, whether the pipeline fetched it there or
    not (an unfetched input's block index has not moved since the point before), for any proof data over the entry
    contents whose body leaves the block in place. -/
theorem holds_block0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's current staging buffer holds its block at every point, whether the pipeline fetched it there or
    not (an unfetched input's block index has not moved since the point before), for any proof data over the entry
    contents whose body leaves the block in place. -/
theorem holds_block1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's current staging buffer holds its block at every point, whether the pipeline fetched it there or
    not (an unfetched input's block index has not moved since the point before), for any proof data over the entry
    contents whose body leaves the block in place. -/
theorem holds_block2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's current staging buffer holds its block at every point, whether the pipeline fetched it there or
    not (an unfetched input's block index has not moved since the point before), for any proof data over the entry
    contents whose body leaves the block in place. -/
theorem holds_block3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## The frame claim's post from a run of the region -/

/-- A run that ends with every window's array at what the proof data computes and every other unscoped buffer as
    the region found it leaves all fifteen arguments as launched: argument 0 is window 0's array, an input, so it
    ends at its entry contents; the other fourteen bypass the region; and the host prefix wrote none of them. -/
theorem unchanged_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 0).trans (((dats 0 c).arrAt_in 0 rfl _).trans ((hA c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).2 main_arg11 (Pipeline.mem_restRefs_of main_arg11 (by decide) (by decide))).trans (atEntry_arg11 m c),
      ((h c).2 main_arg12 (Pipeline.mem_restRefs_of main_arg12 (by decide) (by decide))).trans (atEntry_arg12 m c),
      ((h c).2 main_arg13 (Pipeline.mem_restRefs_of main_arg13 (by decide) (by decide))).trans (atEntry_arg13 m c),
      ((h c).2 main_arg14 (Pipeline.mem_restRefs_of main_arg14 (by decide) (by decide))).trans (atEntry_arg14 m c)⟩) h

end Cert.KernelIdeal.Region

end
-- ==== Proof.IdealStored.lean ====
/-
  The column the kernel body stores at a grid point, as one term over the four blocks it loaded.

  Row `r` of what the body stores depends on row `r` of the input block only:

      p  = exp (Σₖ log|x r k| · wp k + s₀)                      (a product of powers, in log space)
      h₀ = (Σₖ x r k · ws k + p · s₁) + s₂                       (a linear form in the row and `p`)
      hⱼ₊₁ = max (fⱼ hⱼ · aⱼ, 0) · bⱼ + hⱼ · cⱼ                   for f = log|·|, sin, cos, exp, tanh

  with (aⱼ, bⱼ, cⱼ) the scalars 3j+3, 3j+4, 3j+5 of the row of eighteen; the stored entry is h₅. `stored` is that value
  with the generated skeleton's payloads composed as the body composes them.
-/
import proofs.«161042_j43276090474801_1_alg».proof.Proof.Gen.KernelIdeal.Skeleton

noncomputable section

namespace Cert.KernelIdeal.Region

open Cert.KernelIdeal Cert.KernelIdeal.Gen
open Idealize.ShloMosaic

variable {F : FTy → Type} [FloatOps F]

/-- The column the body stores, from the four blocks it loaded: `x` the input block, `wp` and `ws` the weight rows of
    the log-space product and of the linear form, `sc` the eighteen scalars. -/
def stored (x : Vec F S4096x128 .f32) (wp ws : Vec F S1x128 .f32) (sc : Vec F S1x18 .f32) : FVec F S4096x1 .f32 :=
  k0_pay1 (k0_pay19 sc) (k0_pay20 sc)
    (k0_pay23 x (k0_pay2 ws) (k0_pay4 sc) (k0_pay5 sc) (k0_pay6 sc) (k0_pay7 sc) (k0_pay8 sc) (k0_pay9 sc) (k0_pay10 sc) (k0_pay11 sc) (k0_pay12 sc) (k0_pay13 sc) (k0_pay14 sc) (k0_pay15 sc) (k0_pay16 sc) (k0_pay17 sc) (k0_pay21 x wp) (k0_pay22 sc))
    (k0_pay24 x (k0_pay2 ws) (k0_pay4 sc) (k0_pay5 sc) (k0_pay6 sc) (k0_pay7 sc) (k0_pay8 sc) (k0_pay9 sc) (k0_pay10 sc) (k0_pay11 sc) (k0_pay12 sc) (k0_pay13 sc) (k0_pay14 sc) (k0_pay15 sc) (k0_pay16 sc) (k0_pay17 sc) (k0_pay18 sc) (k0_pay21 x wp) (k0_pay22 sc))

end Cert.KernelIdeal.Region

end
-- ==== Proof.IdealBody.lean ====
/-
  The kernel body on one block, as a separation-logic triple.

  At a grid point the body is handed five whole staging buffers: a 4096 × 128 block of the input, the two weight rows
  (1 × 128 each), the row of eighteen scalars, and the 4096 × 1 block of the result. It loads the four inputs whole,
  computes, loads the result buffer (a value it never uses) and overwrites the result buffer whole. Row `r` of what it
  stores depends on row `r` of the input block only:

      p  = exp (Σₖ log|x r k| · wp k + s₀)                      (a product of powers, in log space)
      h₀ = (Σₖ x r k · ws k + p · s₁) + s₂                       (a linear form in the row and `p`)
      hⱼ₊₁ = max (fⱼ hⱼ · aⱼ, 0) · bⱼ + hⱼ · cⱼ                   for f = log|·|, sin, cos, exp, tanh

  with (aⱼ, bⱼ, cⱼ) the scalars 3j+3, 3j+4, 3j+5; the stored entry is h₅. `stored` (stated in its own module) is that
  value as one term over the four loaded blocks, and the triple says the inputs' buffers are left as they were and the
  result's buffer ends holding `stored` everywhere.
-/
import proofs.«161042_j43276090474801_1_alg».proof.Proof.IdealEntry
import proofs.«161042_j43276090474801_1_alg».proof.Proof.IdealStored

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses: every one is a whole buffer -/

abbrev wholeX : Rect S4096x128 := Rect.unit (s := S4096x128) ![0, 0] S4096x128.size inb_S4096x128_S4096x128_0_0
abbrev wholeRow : Rect S1x128 := Rect.unit (s := S1x128) ![0, 0] S1x128.size inb_S1x128_S1x128_0_0
abbrev wholeScalars : Rect S1x18 := Rect.unit (s := S1x18) ![0, 0] S1x18.size inb_S1x18_S1x18_0_0
abbrev wholeOut : Rect S4096x1 := Rect.unit (s := S4096x1) ![0, 0] S4096x1.size inb_S4096x1_S4096x1_0_0

/-! ## What the body leaves in the result's buffer -/

/-- The result's staging buffer after the body: its one store, over the loaded blocks. -/
def leftInOut (x0 : Vec F S4096x128 .f32) (x1 x2 : Vec F S1x128 .f32) (x3 : Vec F S1x18 .f32) : Vec F S4096x1 .f32 :=
  View.canon [⟨wholeOut, stored (View.ld x0 wholeX) (View.ld x1 wholeRow) (View.ld x2 wholeRow) (View.ld x3 wholeScalars)⟩]

/-- The one store covers the result's buffer. -/
theorem store_covers (p0 : Vec F S4096x1 .f32) (y : S4096x1.Idx) :
    ∃ pc ∈ ([⟨wholeOut, p0⟩] : List (View.Piece (Elt F) S4096x1 .f32)), y ∈ pc.1.set :=
  View.cover_of_tiled [⟨wholeOut, p0⟩] S4096x1.size (by rfl) y

/-! ## The body's triple -/

set_option maxHeartbeats 1000000 in
/-- On whole staging buffers, the inputs' at contents read as `x0 … x3` and the result's at anything, the body runs to
    its end, faults nowhere, leaves the inputs' buffers as they were and the result's at `leftInOut`. -/
theorem body_runs (c : Dev nD) (E : Set ℕ) (i : grid0.Coords)
    (a1 : Memref sig .tc .vmem S4096x128 .f32) (h1 : a1.IsWhole) (a2 : Memref sig .tc .vmem S1x128 .f32) (h2 : a2.IsWhole)
    (a3 : Memref sig .tc .vmem S1x128 .f32) (h3 : a3.IsWhole) (a4 : Memref sig .tc .vmem S1x18 .f32) (h4 : a4.IsWhole)
    (a5 : Memref sig .tc .vmem S4096x1 .f32) (h5 : a5.IsWhole)
    (x0 : Vec F S4096x128 .f32) (x1 x2 : Vec F S1x128 .f32) (x3 : Vec F S1x18 .f32) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ (∃ d, owns (c : Thread nD τ) a5 fullShare d)
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare (leftInOut x0 x1 x2 x3)) -∗ K ⟨⟩))
      ⊢ wp frame (wpE (defs₀ (F := F)) Variants.none c none) E (cc0__kernel i a1 h1 a2 h2 a3 h3 a4 h4 a5 h5) K := by
  simp only [cc0__kernel_eq_skeleton]; unfold cc0__kernel_skel
  simp only [k0_part1_eq_skeleton, k0_part2_eq_skeleton]; unfold k0_part1_skel k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (store_covers _)

end Cert.KernelIdeal.Region

end
-- ==== Proof.IdealRun.lean ====
/-
  The region run point by point, and the frame.

  The proof data says what every staging buffer holds after the body at every grid point: an input window's buffer
  still holds its block of the entry contents (the body only loads it), and the result window's buffer holds the
  column the body stored, computed from the four input blocks of that point. Nothing is carried from one point to the
  next: each point's result depends on that point's blocks alone. With the body's triple at a generic point this is
  the pipeline's body obligation, and the library's frame run turns it into: every weakly fair execution of @main
  terminates without a fault, the result array ends at what the pipeline wrote back point by point, and every other
  unscoped buffer ends as the region found it.
-/
import proofs.«161042_j43276090474801_1_alg».proof.Proof.IdealBody

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer at its block and
    the result's at the stored column of that point's blocks; the invariant the scoped rest and the generator
    register, untouched; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => leftInOut (blockAt m c 0 t) (blockAt m c 1 t) (blockAt m c 2 t) (blockAt m c 3 t)
  Φ _ := Pipeline.ΦA spec0 c
  q _ := fullShare
  owed _ := 0

/-- The proof data's arrays are the entry contents. -/
theorem arrays_at_entry (c : Dev nD) (w : Fin cfg0.W) : (dats m 0 c).A w = atEntry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_out (c : Dev nD) (t : Fin cfg0.N) :
    (dats m 0 c).after 4 t = leftInOut (blockAt m c 0 t) (blockAt m c 1 t) (blockAt m c 2 t) (blockAt m c 3 t) := by dsimp only [dats]

/-- Each input's current staging buffer holds its block at every point. -/
theorem before_in0 (c : Dev nD) (t : Fin cfg0.N) (d) : (dats m 0 c).before 0 t d = blockAt m c 0 t :=
  holds_block0 m (dats m 0 c) (arrays_at_entry m c 0) (after_in0 m c) t d
theorem before_in1 (c : Dev nD) (t : Fin cfg0.N) (d) : (dats m 0 c).before 1 t d = blockAt m c 1 t :=
  holds_block1 m (dats m 0 c) (arrays_at_entry m c 1) (after_in1 m c) t d
theorem before_in2 (c : Dev nD) (t : Fin cfg0.N) (d) : (dats m 0 c).before 2 t d = blockAt m c 2 t :=
  holds_block2 m (dats m 0 c) (arrays_at_entry m c 2) (after_in2 m c) t d
theorem before_in3 (c : Dev nD) (t : Fin cfg0.N) (d) : (dats m 0 c).before 3 t d = blockAt m c 3 t :=
  holds_block3 m (dats m 0 c) (arrays_at_entry m c 3) (after_in3 m c) t d

/-! ## The body obligation, at a generic point -/

/-- What the body is called with at point `t`, the windows one by one, -/
def atCall (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def atReturn (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's debts pass through unread. -/
theorem point_runs (c : Dev nD) (t : Fin cfg0.N) :
    atCall m c t ⊢ wp frame (wpE (defs₀ (F := F)) Variants.none c none) Set.univ (bodyAt0 t) (fun _ => atReturn m c t) := by
  unfold atCall atReturn bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after_in0, after_in1, after_in2, after_in3, after_out]
  iintro ⟨HΦ, Ho, ⟨%d0, H0⟩, ⟨%d1, H1⟩, ⟨%d2, H2⟩, ⟨%d3, H3⟩, ⟨%d4, H4⟩⟩
  iapply (body_runs c Set.univ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The pipeline's body obligation, at every point. -/
theorem every_point (c : Dev nD) : BodyObligation (dats (F := F) m 0 c) (defs₀ (F := F)) Variants.none () Set.univ := fun t => by
  rw [bigSep_W0, bigSep_W0]
  exact point_runs m c t

/-! ## The run and the frame -/

set_option backward.isDefEq.respectTransparency.types false in
/-- From any memory with zero counters every weakly fair execution of @main on the TensorCores terminates, nothing
    faulting, with every array of the pipeline at what the proof data computes and every other unscoped buffer as the
    region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (every_point m c).loose) (hshare := fun c => (dats m 0 c).share_full fun _ => rfl)
    (howed := fun _ _ => rfl) (V := atEntry m) (hmain := main_to_region m Variants.none) (hA := arrays_at_entry m) (hΦ := fun _ _ => rfl)

/-- The frame, at any float instance: @main runs to its end and its fifteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  unchanged_of_run m ρ (dats m) (arrays_at_entry m) (run_main m ρ)

end Cert.KernelIdeal.Region

end
-- ==== Proof.Spec.lean ====
/-
  What both programs compute, as one function of the fifteen argument arrays on the extended reals.

  Row `r` of the result depends on row `r` of `x` and on the parameters only. Write `|y|` for `max y (-y)`:

      p   = exp (Σ_{k<128} log|x r k| · W_prod k  +  b_prod)
      h₀  = ((Σ_{k<128} x r k · W_sum k)  +  p · W_sum 128)  +  b_sum
      hⱼ₊₁ = max (fⱼ hⱼ · dⱼ, 0) · Wⱼ 0  +  hⱼ · Wⱼ 1        f = log|·|, sin, cos, exp, tanh

  and the result at row `r` is `h₅`. The kernel computes exactly this, block of 4096 rows by block; the reference
  computes `h₀` as ONE sum over 129 terms (the row of `x` with `p` appended, against all of `W_sum`) and each
  `hⱼ₊₁` as a sum over 2 terms (the pair (gate, hⱼ) against `Wⱼ`). The two arrangements differ only in how a finite
  sum is grouped, which the extended reals do not see: addition there is commutative and associative (the conventions
  at `+∞ + -∞` included), so no finiteness of the inputs is needed. The zero the gates clamp against is kept as
  the word both programs print.
-/
import Idealize.ShloMosaic.PureOps.Ideal
import Idealize.ShloMosaic.Lib.ValueIdx

noncomputable section

namespace Cert.Spec

open Idealize.ShloMosaic Idealize.ShloMosaic.ValueIdx

/-- An array of extended reals of two axes, of one axis. -/
abbrev Arr2 (n0 n1 : Nat) : Type := (⟨2, ![n0, n1]⟩ : Shape).Idx → EReal
abbrev Arr1 (n : Nat) : Type := (⟨1, ![n]⟩ : Shape).Idx → EReal

/-- The absolute value on the extended reals. -/
def absE (y : EReal) : EReal := max y (-y)

/-- The zero of the gates, as the word both programs print. -/
abbrev zeroWord : EReal := Ideal.ofBits .f32 0x00000000#32

/-- One gated stage: `max (f h · d, 0) · w₀ + h · w₁`. -/
def stage (f : EReal → EReal) (d w0 w1 h : EReal) : EReal := max (f h * d) zeroWord * w0 + h * w1

/-- The product of powers of a row, in log space: `exp (Σₖ log|xₖ| · wpₖ + b)`. -/
def powers (x wp : Fin 128 → EReal) (b : EReal) : EReal := Ideal.exp ((∑ k, Ideal.log (absE (x k)) * wp k) + b)

/-- The linear form in the row and its product of powers. -/
def linear (x ws : Fin 128 → EReal) (p wlast b : EReal) : EReal := ((∑ k, x k * ws k) + p * wlast) + b

/-- A row's result, from the row, the two weight rows and the eighteen scalars `s` (in the order the kernel keeps
    them: b_prod, W_sum 128, b_sum, then per stage its gate weight and its two mixing weights). -/
def rowValue (x wp ws : Fin 128 → EReal) (s : Fin 18 → EReal) : EReal :=
  stage Ideal.tanh (s 15) (s 16) (s 17)
    (stage Ideal.exp (s 12) (s 13) (s 14)
      (stage Ideal.cos (s 9) (s 10) (s 11)
        (stage Ideal.sin (s 6) (s 7) (s 8)
          (stage (fun h => Ideal.log (absE h)) (s 3) (s 4) (s 5)
            (linear x ws (powers x wp (s 0)) (s 1) (s 2))))))

/-- The eighteen scalars, read off the parameter arrays. -/
def scalars (b_prod : Arr1 1) (W_sum : Arr2 129 1) (b_sum : Arr1 1)
    (w_dln : Arr2 1 1) (W_ln : Arr2 2 1) (w_dsin : Arr2 1 1) (W_sin : Arr2 2 1) (w_dcos : Arr2 1 1) (W_cos : Arr2 2 1)
    (w_de : Arr2 1 1) (W_e : Arr2 2 1) (w_dtanh : Arr2 1 1) (W_tanh : Arr2 2 1) : Fin 18 → EReal
  | ⟨0, _⟩ => b_prod (ix1 0)
  | ⟨1, _⟩ => W_sum (ix2 128 0)
  | ⟨2, _⟩ => b_sum (ix1 0)
  | ⟨3, _⟩ => w_dln (ix2 0 0)
  | ⟨4, _⟩ => W_ln (ix2 0 0)
  | ⟨5, _⟩ => W_ln (ix2 1 0)
  | ⟨6, _⟩ => w_dsin (ix2 0 0)
  | ⟨7, _⟩ => W_sin (ix2 0 0)
  | ⟨8, _⟩ => W_sin (ix2 1 0)
  | ⟨9, _⟩ => w_dcos (ix2 0 0)
  | ⟨10, _⟩ => W_cos (ix2 0 0)
  | ⟨11, _⟩ => W_cos (ix2 1 0)
  | ⟨12, _⟩ => w_de (ix2 0 0)
  | ⟨13, _⟩ => W_e (ix2 0 0)
  | ⟨14, _⟩ => W_e (ix2 1 0)
  | ⟨15, _⟩ => w_dtanh (ix2 0 0)
  | ⟨16, _⟩ => W_tanh (ix2 0 0)
  | ⟨17, _⟩ => W_tanh (ix2 1 0)
  | ⟨n + 18, h⟩ => absurd h (by omega)

/-- The whole result array, from the fifteen argument arrays. -/
def result (x : Arr2 1048576 128) (W_prod : Arr2 128 1) (b_prod : Arr1 1) (W_sum : Arr2 129 1) (b_sum : Arr1 1)
    (w_dln : Arr2 1 1) (W_ln : Arr2 2 1) (w_dsin : Arr2 1 1) (W_sin : Arr2 2 1) (w_dcos : Arr2 1 1) (W_cos : Arr2 2 1)
    (w_de : Arr2 1 1) (W_e : Arr2 2 1) (w_dtanh : Arr2 1 1) (W_tanh : Arr2 2 1) : Arr2 1048576 1 :=
  fun i => rowValue (fun k => x (ix2 (i 0) k)) (fun k => W_prod (ix2 k 0)) (fun k => W_sum (ix2 (Fin.castSucc k : Fin 129) 0))
    (scalars b_prod W_sum b_sum w_dln W_ln w_dsin W_sin w_dcos W_cos w_de W_e w_dtanh W_tanh)

/-! ## The one law that joins the two arrangements -/

/-- A sum over 129 terms is the sum over the first 128 plus the last. -/
theorem sum_129 (f : Fin 129 → EReal) : ∑ k : Fin 129, f k = (∑ k : Fin 128, f (Fin.castSucc k)) + f (Fin.last 128) :=
  Fin.sum_univ_castSucc f

/-- A sum over 2 terms is the two terms. -/
theorem sum_2 (f : Fin 2 → EReal) : ∑ k : Fin 2, f k = f 0 + f 1 := Fin.sum_univ_two f

end Cert.Spec

end
-- ==== Proof.IdealRowValue.lean ====
/-
  Row `r` of the column the kernel body stores, at the ideal values, is the specification's row function.

  The body's stored column is a composition of pointwise operations (products, sums, maxima, `log|·|`, `sin`, `cos`,
  `exp`, `tanh`), of scalars picked out of the row of eighteen, of one weight row broadcast over the block, and of two
  lane sums kept as columns. Read at the index `(r, 0)`:

    * a pointwise operation reads its operands at `(r, 0)` (by definition);
    * the scalar picked at column `n` is the entry `(0, n)` of the row of eighteen;
    * a row broadcast over the block reads, at `(r, k)`, the row at `(0, k)`;
    * a lane sum kept as a column reads, at `(r, 0)`, the sum over `k < 128` of the source at `(r, k)`.

  The body groups its sums as the specification does — `(Σₖ x r k · ws k + p · s₁) + s₂` and `exp (Σₖ log|x r k| · wp k + s₀)` —
  so once every layout operation is read at its index the two sides are the same expression: no law of the extended
  reals is used.
-/
import proofs.«161042_j43276090474801_1_alg».proof.Proof.IdealStored
import proofs.«161042_j43276090474801_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.RowValue

open Cert.KernelIdeal Cert.KernelIdeal.Gen Cert.KernelIdeal.Region
open Idealize.ShloMosaic Idealize.ShloMosaic.ValueIdx

/-! ## Reading lemmas for the layout operations of the body -/

/-- The reduced index `r` with the lane coordinate `k` put back is the index `(r, k)`. -/
theorem lift_row (r : Fin 4096) (k : Fin 128) :
    reduces_S4096x128_S4096.lift (ix1 r) k = ix2 r k := by
  funext a
  match a with
  | ⟨0, _⟩ => exact Fin.ext rfl
  | ⟨1, _⟩ => exact Fin.ext rfl

/-- A lane sum kept as a column reads, at row `r`, the sum over the lanes of row `r` of the source. -/
theorem laneSum_col (v : FVec Ideal S4096x128 .f32) (r : Fin 4096) :
    shapeCast S4096x1 (multiReduction (F := Ideal) .add [1] S4096 v 0x00000000#32 reduces_S4096x128_S4096 (.inl rfl) rfl)
        shapeCasts_S4096_S4096x1 (ix2 r 0)
      = ∑ k : Fin 128, v (ix2 r k) := by
  refine (shapeCast_apply _ shapeCasts_S4096_S4096x1 (ix2 r 0) (ix1 r) ?_).trans ?_
  · rw [Shape.rowMajor_val_one, Shape.rowMajor_val_two]
    show r.val = r.val * 1 + 0
    omega
  · refine (Ideal.multiReduction_add_single v 0x00000000#32 reduces_S4096x128_S4096 (.inl rfl) rfl (ix1 r)).trans ?_
    exact Finset.sum_congr rfl fun k _ => congrArg v (lift_row r k)

/-- One row broadcast over the block reads, at `(r, k)`, the row at `k`. -/
theorem rowBroadcast (w : FVec Ideal S1x128 .f32) (r : Fin 4096) (k : Fin 128) :
    broadcastTo S4096x128 w broadcasts_S1x128_S4096x128 (ix2 r k) = w (ix2 0 k) :=
  broadcastTo_1b_ab_apply w broadcasts_S1x128_S4096x128 r k

/-- The lane sum of a block times a broadcast row, as a column, at row `r`: `Σₖ v r k · w k`. -/
theorem weightedSum_col (v : FVec Ideal S4096x128 .f32) (w : FVec Ideal S1x128 .f32) (r : Fin 4096) :
    shapeCast S4096x1 (multiReduction (F := Ideal) .add [1] S4096 (mulf v (broadcastTo S4096x128 w broadcasts_S1x128_S4096x128))
        0x00000000#32 reduces_S4096x128_S4096 (.inl rfl) rfl) shapeCasts_S4096_S4096x1 (ix2 r 0)
      = ∑ k : Fin 128, v (ix2 r k) * w (ix2 0 k) := by
  refine (laneSum_col _ r).trans ?_
  refine Finset.sum_congr rfl fun k _ => ?_
  show v (ix2 r k) * broadcastTo S4096x128 w broadcasts_S1x128_S4096x128 (ix2 r k) = _
  rw [rowBroadcast]

/-! ## The eighteen scalars -/

/-- The entry at `(0, 0)` of the one-entry slice at column `n` of the row of eighteen is the row's entry `n`. -/
theorem pick (sc : Vec Ideal S1x18 .f32) (n : Fin 18) (h : S1x18.Slices ![0, n.val] S1x1) :
    extractAt ![0, 0] (extractStridedSlice S1x1 ![0, n.val] (k0_pay3 (F := Ideal) sc) h) inpos_S1x1_p0_0 = sc (ix2 0 n) := by
  unfold k0_pay3
  simp only [shapeCast_self]
  exact congrArg sc (funext fun a => Fin.ext (by match a with | ⟨0, _⟩ => rfl | ⟨1, _⟩ => rfl))

theorem scalar1 (sc : Vec Ideal S1x18 .f32) : k0_pay4 (F := Ideal) sc = sc (ix2 0 1) :=
  pick sc 1 _

theorem scalar2 (sc : Vec Ideal S1x18 .f32) : k0_pay5 (F := Ideal) sc = sc (ix2 0 2) :=
  pick sc 2 _

theorem scalar3 (sc : Vec Ideal S1x18 .f32) : k0_pay6 (F := Ideal) sc = sc (ix2 0 3) :=
  pick sc 3 _

theorem scalar4 (sc : Vec Ideal S1x18 .f32) : k0_pay7 (F := Ideal) sc = sc (ix2 0 4) :=
  pick sc 4 _

theorem scalar5 (sc : Vec Ideal S1x18 .f32) : k0_pay8 (F := Ideal) sc = sc (ix2 0 5) :=
  pick sc 5 _

theorem scalar6 (sc : Vec Ideal S1x18 .f32) : k0_pay9 (F := Ideal) sc = sc (ix2 0 6) :=
  pick sc 6 _

theorem scalar7 (sc : Vec Ideal S1x18 .f32) : k0_pay10 (F := Ideal) sc = sc (ix2 0 7) :=
  pick sc 7 _

theorem scalar8 (sc : Vec Ideal S1x18 .f32) : k0_pay11 (F := Ideal) sc = sc (ix2 0 8) :=
  pick sc 8 _

theorem scalar9 (sc : Vec Ideal S1x18 .f32) : k0_pay12 (F := Ideal) sc = sc (ix2 0 9) :=
  pick sc 9 _

theorem scalar10 (sc : Vec Ideal S1x18 .f32) : k0_pay13 (F := Ideal) sc = sc (ix2 0 10) :=
  pick sc 10 _

theorem scalar11 (sc : Vec Ideal S1x18 .f32) : k0_pay14 (F := Ideal) sc = sc (ix2 0 11) :=
  pick sc 11 _

theorem scalar12 (sc : Vec Ideal S1x18 .f32) : k0_pay15 (F := Ideal) sc = sc (ix2 0 12) :=
  pick sc 12 _

theorem scalar13 (sc : Vec Ideal S1x18 .f32) : k0_pay16 (F := Ideal) sc = sc (ix2 0 13) :=
  pick sc 13 _

theorem scalar14 (sc : Vec Ideal S1x18 .f32) : k0_pay17 (F := Ideal) sc = sc (ix2 0 14) :=
  pick sc 14 _

theorem scalar15 (sc : Vec Ideal S1x18 .f32) : k0_pay18 (F := Ideal) sc = sc (ix2 0 15) :=
  pick sc 15 _

theorem scalar16 (sc : Vec Ideal S1x18 .f32) : k0_pay19 (F := Ideal) sc = sc (ix2 0 16) :=
  pick sc 16 _

theorem scalar17 (sc : Vec Ideal S1x18 .f32) : k0_pay20 (F := Ideal) sc = sc (ix2 0 17) :=
  pick sc 17 _

/-- Scalar 0, broadcast to the column, reads the row's entry 0 at every row. -/
theorem scalar0 (sc : Vec Ideal S1x18 .f32) (r : Fin 4096) : k0_pay22 (F := Ideal) sc (ix2 r 0) = sc (ix2 0 0) :=
  pick sc 0 slices_S1x18_o0_0_S1x1

/-- The weight row of the linear form is passed on as it is. -/
theorem weightRow (ws : Vec Ideal S1x128 .f32) : k0_pay2 (F := Ideal) ws = ws := by
  unfold k0_pay2
  exact shapeCast_self ws _

/-! ## The stages at a row -/

/-- The log-space sum at row `r`: `Σₖ log|x r k| · wp k`. -/
theorem pay21_row (x : Vec Ideal S4096x128 .f32) (wp : Vec Ideal S1x128 .f32) (r : Fin 4096) :
    k0_pay21 (F := Ideal) x wp (ix2 r 0)
      = ∑ k : Fin 128, Ideal.log (Cert.Spec.absE (x (ix2 r k))) * wp (ix2 0 k) := by
  unfold k0_pay21
  simp only [shapeCast_self]
  exact weightedSum_col _ wp r

/-- Everything up to the exponential stage, at row `r`, from the column `v48` of log-space sums and the column
    `v49` of the first scalar: four gated stages over the linear form in the row and its product of powers. -/
theorem pay23_row (x : Vec Ideal S4096x128 .f32) (w : FVec Ideal S1x128 .f32)
    (s1 s2 s3 s4 s5 s6 s7 s8 s9 s10 s11 s12 s13 s14 : Ideal .f32) (v48 v49 : FVec Ideal S4096x1 .f32) (r : Fin 4096) :
    k0_pay23 (F := Ideal) x w s1 s2 s3 s4 s5 s6 s7 s8 s9 s10 s11 s12 s13 s14 v48 v49 (ix2 r 0)
      = Cert.Spec.stage Ideal.exp s12 s13 s14
          (Cert.Spec.stage Ideal.cos s9 s10 s11
            (Cert.Spec.stage Ideal.sin s6 s7 s8
              (Cert.Spec.stage (fun h => Ideal.log (Cert.Spec.absE h)) s3 s4 s5
                (((∑ k : Fin 128, x (ix2 r k) * w (ix2 0 k)) + Ideal.exp (v48 (ix2 r 0) + v49 (ix2 r 0)) * s1) + s2)))) := by
  rw [← weightedSum_col x w r]
  rfl

/-- A hyperbolic tangent of a column times a broadcast scalar, at an index. -/
theorem tanh_mul_apply (v : FVec Ideal S4096x1 .f32) (s : Ideal .f32) (i : S4096x1.Idx) :
    mulf (tanh v) (broadcast S4096x1 s) i = Ideal.tanh (v i) * s := rfl

/-- The gate of the last stage before its clamp, at row `r`. -/
theorem pay24_row (x : Vec Ideal S4096x128 .f32) (w : FVec Ideal S1x128 .f32)
    (s1 s2 s3 s4 s5 s6 s7 s8 s9 s10 s11 s12 s13 s14 s15 : Ideal .f32) (v48 v49 : FVec Ideal S4096x1 .f32) (r : Fin 4096) :
    k0_pay24 (F := Ideal) x w s1 s2 s3 s4 s5 s6 s7 s8 s9 s10 s11 s12 s13 s14 s15 v48 v49 (ix2 r 0)
      = Ideal.tanh (k0_pay23 (F := Ideal) x w s1 s2 s3 s4 s5 s6 s7 s8 s9 s10 s11 s12 s13 s14 v48 v49 (ix2 r 0)) * s15 := by
  unfold k0_pay24
  exact tanh_mul_apply _ s15 (ix2 r 0)

/-- The last stage's clamp and mix, at row `r`. -/
theorem pay1_row (s16 s17 : Ideal .f32) (v101 v104 : FVec Ideal S4096x1 .f32) (r : Fin 4096) :
    k0_pay1 (F := Ideal) s16 s17 v101 v104 (ix2 r 0)
      = max (v104 (ix2 r 0)) Cert.Spec.zeroWord * s16 + v101 (ix2 r 0) * s17 := rfl

/-! ## The stored column at a row -/

/-- Row `r` of the column the body stores is the specification's row function of row `r` of the input block, the
    two weight rows and the eighteen scalars. -/
theorem stored_row (x : Vec Ideal S4096x128 .f32) (wp ws : Vec Ideal S1x128 .f32) (sc : Vec Ideal S1x18 .f32) (r : Fin 4096) :
    stored (F := Ideal) x wp ws sc (ix2 r 0)
      = Cert.Spec.rowValue (fun k => x (ix2 r k)) (fun k => wp (ix2 0 k)) (fun k => ws (ix2 0 k)) (fun n => sc (ix2 0 n)) := by
  unfold stored
  rw [pay1_row, pay24_row, pay23_row, pay21_row, scalar0, weightRow,
    scalar1, scalar2, scalar3, scalar4, scalar5, scalar6, scalar7, scalar8, scalar9, scalar10, scalar11, scalar12,
    scalar13, scalar14, scalar15, scalar16, scalar17]
  rfl

end Cert.KernelIdeal.RowValue

end
-- ==== Proof.IdealHostRows.lean ====
/-
  The two weight rows the region stages, read at a column.

  The host prefix re-lays the 128 × 1 weight column of the log-space product as a 1 × 128 row, and likewise the first
  128 entries of the 129 × 1 weight column of the linear form (its last entry goes to the scalar row). A re-laying
  keeps the row-major position, so column `k` of either row is entry `k` of its column.
-/
import proofs.«161042_j43276090474801_1_alg».proof.Proof.IdealEntry
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HostValues

open Cert.KernelIdeal Cert.KernelIdeal.Gen Cert.KernelIdeal.Region
open Idealize.ShloMosaic Idealize.ShloMosaic.TcCoe Idealize.ShloMosaic.ValueIdx Idealize.ShloMosaic.StableHlo
open Idealize.SL.Sem

variable (m : (ℓ : Loc nD τ sig) → Buf (Elt Ideal) ℓ)

/-- Keep reading operation results at literal references: an operation's own result buffer reads its function's
    value, any other buffer reads what was there. -/
macro "read_results" : tactic =>
  `(tactic| repeat (first
      | rw [nullary_result] | rw [unary_result] | rw [binary_result] | rw [reshape_result] | rw [nary_result]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide)))

/-- The staged weight row of the product is the 128 × 1 parameter re-laid. -/
theorem product_row_term (c : Dev nD) :
    (atEntry m c main_v0 : S1x128.Idx → Elt Ideal .f32) = shapeCast S1x128 (m ((c : Thread nD τ).loc main_arg1)) shapeCasts_S128x1_S1x128 := by
  dsimp only [atEntry, hostOps0]; after_results; rfl

/-- Column `k` of the staged weight row of the product is entry `k` of the parameter column. -/
theorem product_row (c : Dev nD) (k : Fin 128) :
    (atEntry m c main_v0 : S1x128.Idx → Elt Ideal .f32) (ix2 (0 : Fin 1) k) = m ((c : Thread nD τ).loc main_arg1) (ix2 k (0 : Fin 1)) := by
  rw [product_row_term]
  exact shapeCast_apply _ _ (ix2 (0 : Fin 1) k) (ix2 k (0 : Fin 1)) (by rw [Shape.rowMajor_val_two, Shape.rowMajor_val_two]; simp)

/-- The staged weight row of the linear form is the first 128 entries of the 129 × 1 parameter, re-laid. -/
theorem linear_row_term (c : Dev nD) :
    (atEntry m c main_v2 : S1x128.Idx → Elt Ideal .f32)
      = shapeCast S1x128 (extractStridedSlice S128x1 ![0, 0] (m ((c : Thread nD τ).loc main_arg3)) slices_S129x1_S128x1_0_0) shapeCasts_S128x1_S1x128 := by
  dsimp only [atEntry, hostOps0]; after_results; rfl

/-- Column `k` of the staged weight row of the linear form is entry `k` of the 129-column. -/
theorem linear_row (c : Dev nD) (k : Fin 128) :
    (atEntry m c main_v2 : S1x128.Idx → Elt Ideal .f32) (ix2 (0 : Fin 1) k)
      = m ((c : Thread nD τ).loc main_arg3) (ix2 (Fin.castSucc k : Fin 129) (0 : Fin 1)) := by
  rw [linear_row_term]
  refine (shapeCast_apply _ _ (ix2 (0 : Fin 1) k) (ix2 k (0 : Fin 1)) (by rw [Shape.rowMajor_val_two, Shape.rowMajor_val_two]; simp)).trans ?_
  exact extractStridedSlice_apply (s := S129x1) (t := S128x1) ![0, 0] _ slices_S129x1_S128x1_0_0 (ix2 k (0 : Fin 1))
    (ix2 (Fin.castSucc k : Fin 129) (0 : Fin 1)) (by intro a; fin_cases a <;> simp)

end Cert.KernelIdeal.HostValues

end
-- ==== Proof.IdealScalarsA.lean ====
/-
  The row of eighteen scalars the region stages, read column by column: columns 0–5.

  The host prefix builds the row by concatenation along its one long axis: sixteen 1 × 1 pieces, then two more. Each
  piece is an entry of a parameter array: a rank-1 bias re-laid as 1 × 1, a 1 × 1 slice of a 2 × 1 or 129 × 1 column,
  or a 1 × 1 parameter as it is. Reading column `n` of the row therefore means: find the piece whose span along the
  long axis holds `n` (each piece has extent one, so it is piece `n`), and read that piece at its only entry.
-/
import proofs.«161042_j43276090474801_1_alg».proof.Proof.IdealHostRows

set_option maxRecDepth 16384

noncomputable section

namespace Cert.KernelIdeal.HostValues

open Cert.KernelIdeal Cert.KernelIdeal.Gen Cert.KernelIdeal.Region
open Idealize.ShloMosaic Idealize.ShloMosaic.TcCoe Idealize.ShloMosaic.ValueIdx Idealize.ShloMosaic.StableHlo
open Idealize.SL.Sem

variable (m : (ℓ : Loc nD τ sig) → Buf (Elt Ideal) ℓ)

set_option maxHeartbeats 1000000 in
/-- Column 0 of the scalar row is the bias of the log-space product. -/
theorem scalar0 (c : Dev nD) :
    (atEntry m c main_v18 : S1x18.Idx → Elt Ideal .f32) (ix2 (0 : Fin 1) (0 : Fin 18)) = m ((c : Thread nD τ).loc main_arg2) (ix1 (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (0 : Fin 18)) rfl (ix2 (0 : Fin 1) (0 : Fin 16)) ?_).trans ?_
  · intro b; fin_cases b <;> rfl
  rw [binary_result_ne]; rotate_left; decide
  rw [nary_result]
  refine (concatenate_apply_piece (t := S1x16) (1 : Fin 2) _ _ (ix2 (0 : Fin 1) (0 : Fin 16)) 0 (by simp) S1x1 _ rfl rfl 0 (by rfl)
    (ix2 (0 : Fin 1) (0 : Fin 1)) ?_ ?_).trans ?_
  · intro b hb; fin_cases b
    · rfl
    · exact absurd rfl hb
  · rfl
  change (HloOp.result _ _ (Proc.devRef .tc main_v4)) _ = _
  read_results
  exact shapeCast_apply (s := S1) (t := S1x1) _ shapeCasts_S1_S1x1 (ix2 (0 : Fin 1) (0 : Fin 1)) (ix1 (0 : Fin 1))
    (by rw [Shape.rowMajor_val_one, Shape.rowMajor_val_two]; rfl)

set_option maxHeartbeats 1000000 in
/-- Column 1 of the scalar row is the last entry of the 129-column. -/
theorem scalar1 (c : Dev nD) :
    (atEntry m c main_v18 : S1x18.Idx → Elt Ideal .f32) (ix2 (0 : Fin 1) (1 : Fin 18)) = m ((c : Thread nD τ).loc main_arg3) (ix2 (128 : Fin 129) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (1 : Fin 18)) rfl (ix2 (0 : Fin 1) (1 : Fin 16)) ?_).trans ?_
  · intro b; fin_cases b <;> rfl
  rw [binary_result_ne]; rotate_left; decide
  rw [nary_result]
  refine (concatenate_apply_piece (t := S1x16) (1 : Fin 2) _ _ (ix2 (0 : Fin 1) (1 : Fin 16)) 1 (by simp) S1x1 _ rfl rfl 1 (by rfl)
    (ix2 (0 : Fin 1) (0 : Fin 1)) ?_ ?_).trans ?_
  · intro b hb; fin_cases b
    · rfl
    · exact absurd rfl hb
  · rfl
  change (HloOp.result _ _ (Proc.devRef .tc main_v3)) _ = _
  read_results
  exact extractStridedSlice_apply (s := S129x1) (t := S1x1) ![128, 0] _ slices_S129x1_S1x1_128_0 (ix2 (0 : Fin 1) (0 : Fin 1)) (ix2 (128 : Fin 129) (0 : Fin 1))
    (by intro a; fin_cases a <;> rfl)

set_option maxHeartbeats 1000000 in
/-- Column 2 of the scalar row is the bias of the linear form. -/
theorem scalar2 (c : Dev nD) :
    (atEntry m c main_v18 : S1x18.Idx → Elt Ideal .f32) (ix2 (0 : Fin 1) (2 : Fin 18)) = m ((c : Thread nD τ).loc main_arg4) (ix1 (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (2 : Fin 18)) rfl (ix2 (0 : Fin 1) (2 : Fin 16)) ?_).trans ?_
  · intro b; fin_cases b <;> rfl
  rw [binary_result_ne]; rotate_left; decide
  rw [nary_result]
  refine (concatenate_apply_piece (t := S1x16) (1 : Fin 2) _ _ (ix2 (0 : Fin 1) (2 : Fin 16)) 2 (by simp) S1x1 _ rfl rfl 2 (by rfl)
    (ix2 (0 : Fin 1) (0 : Fin 1)) ?_ ?_).trans ?_
  · intro b hb; fin_cases b
    · rfl
    · exact absurd rfl hb
  · rfl
  change (HloOp.result _ _ (Proc.devRef .tc main_v5)) _ = _
  read_results
  exact shapeCast_apply (s := S1) (t := S1x1) _ shapeCasts_S1_S1x1 (ix2 (0 : Fin 1) (0 : Fin 1)) (ix1 (0 : Fin 1))
    (by rw [Shape.rowMajor_val_one, Shape.rowMajor_val_two]; rfl)

set_option maxHeartbeats 1000000 in
/-- Column 3 of the scalar row is the gate weight of the log stage. -/
theorem scalar3 (c : Dev nD) :
    (atEntry m c main_v18 : S1x18.Idx → Elt Ideal .f32) (ix2 (0 : Fin 1) (3 : Fin 18)) = m ((c : Thread nD τ).loc main_arg5) (ix2 (0 : Fin 1) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (3 : Fin 18)) rfl (ix2 (0 : Fin 1) (3 : Fin 16)) ?_).trans ?_
  · intro b; fin_cases b <;> rfl
  rw [binary_result_ne]; rotate_left; decide
  rw [nary_result]
  refine (concatenate_apply_piece (t := S1x16) (1 : Fin 2) _ _ (ix2 (0 : Fin 1) (3 : Fin 16)) 3 (by simp) S1x1 _ rfl rfl 3 (by rfl)
    (ix2 (0 : Fin 1) (0 : Fin 1)) ?_ ?_).trans ?_
  · intro b hb; fin_cases b
    · rfl
    · exact absurd rfl hb
  · rfl
  change (HloOp.result _ _ (Proc.devRef .tc main_arg5)) _ = _
  read_results

set_option maxHeartbeats 1000000 in
/-- Column 4 of the scalar row is the first mixing weight of the log stage. -/
theorem scalar4 (c : Dev nD) :
    (atEntry m c main_v18 : S1x18.Idx → Elt Ideal .f32) (ix2 (0 : Fin 1) (4 : Fin 18)) = m ((c : Thread nD τ).loc main_arg6) (ix2 (0 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (4 : Fin 18)) rfl (ix2 (0 : Fin 1) (4 : Fin 16)) ?_).trans ?_
  · intro b; fin_cases b <;> rfl
  rw [binary_result_ne]; rotate_left; decide
  rw [nary_result]
  refine (concatenate_apply_piece (t := S1x16) (1 : Fin 2) _ _ (ix2 (0 : Fin 1) (4 : Fin 16)) 4 (by simp) S1x1 _ rfl rfl 4 (by rfl)
    (ix2 (0 : Fin 1) (0 : Fin 1)) ?_ ?_).trans ?_
  · intro b hb; fin_cases b
    · rfl
    · exact absurd rfl hb
  · rfl
  change (HloOp.result _ _ (Proc.devRef .tc main_v6)) _ = _
  read_results
  exact extractStridedSlice_apply (s := S2x1) (t := S1x1) ![0, 0] _ slices_S2x1_S1x1_0_0 (ix2 (0 : Fin 1) (0 : Fin 1)) (ix2 (0 : Fin 2) (0 : Fin 1))
    (by intro a; fin_cases a <;> rfl)

set_option maxHeartbeats 1000000 in
/-- Column 5 of the scalar row is the second mixing weight of the log stage. -/
theorem scalar5 (c : Dev nD) :
    (atEntry m c main_v18 : S1x18.Idx → Elt Ideal .f32) (ix2 (0 : Fin 1) (5 : Fin 18)) = m ((c : Thread nD τ).loc main_arg6) (ix2 (1 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (5 : Fin 18)) rfl (ix2 (0 : Fin 1) (5 : Fin 16)) ?_).trans ?_
  · intro b; fin_cases b <;> rfl
  rw [binary_result_ne]; rotate_left; decide
  rw [nary_result]
  refine (concatenate_apply_piece (t := S1x16) (1 : Fin 2) _ _ (ix2 (0 : Fin 1) (5 : Fin 16)) 5 (by simp) S1x1 _ rfl rfl 5 (by rfl)
    (ix2 (0 : Fin 1) (0 : Fin 1)) ?_ ?_).trans ?_
  · intro b hb; fin_cases b
    · rfl
    · exact absurd rfl hb
  · rfl
  change (HloOp.result _ _ (Proc.devRef .tc main_v7)) _ = _
  read_results
  exact extractStridedSlice_apply (s := S2x1) (t := S1x1) ![1, 0] _ slices_S2x1_S1x1_1_0 (ix2 (0 : Fin 1) (0 : Fin 1)) (ix2 (1 : Fin 2) (0 : Fin 1))
    (by intro a; fin_cases a <;> rfl)

end Cert.KernelIdeal.HostValues

end
-- ==== Proof.IdealScalarsB.lean ====
/-
  The row of eighteen scalars the region stages, read column by column: columns 6–11.

  The host prefix builds the row by concatenation along its one long axis: sixteen 1 × 1 pieces, then two more. Each
  piece is an entry of a parameter array: a rank-1 bias re-laid as 1 × 1, a 1 × 1 slice of a 2 × 1 or 129 × 1 column,
  or a 1 × 1 parameter as it is. Reading column `n` of the row therefore means: find the piece whose span along the
  long axis holds `n` (each piece has extent one, so it is piece `n`), and read that piece at its only entry.
-/
import proofs.«161042_j43276090474801_1_alg».proof.Proof.IdealHostRows

set_option maxRecDepth 16384

noncomputable section

namespace Cert.KernelIdeal.HostValues

open Cert.KernelIdeal Cert.KernelIdeal.Gen Cert.KernelIdeal.Region
open Idealize.ShloMosaic Idealize.ShloMosaic.TcCoe Idealize.ShloMosaic.ValueIdx Idealize.ShloMosaic.StableHlo
open Idealize.SL.Sem

variable (m : (ℓ : Loc nD τ sig) → Buf (Elt Ideal) ℓ)

set_option maxHeartbeats 1000000 in
/-- Column 6 of the scalar row is the gate weight of the sine stage. -/
theorem scalar6 (c : Dev nD) :
    (atEntry m c main_v18 : S1x18.Idx → Elt Ideal .f32) (ix2 (0 : Fin 1) (6 : Fin 18)) = m ((c : Thread nD τ).loc main_arg7) (ix2 (0 : Fin 1) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (6 : Fin 18)) rfl (ix2 (0 : Fin 1) (6 : Fin 16)) ?_).trans ?_
  · intro b; fin_cases b <;> rfl
  rw [binary_result_ne]; rotate_left; decide
  rw [nary_result]
  refine (concatenate_apply_piece (t := S1x16) (1 : Fin 2) _ _ (ix2 (0 : Fin 1) (6 : Fin 16)) 6 (by simp) S1x1 _ rfl rfl 6 (by rfl)
    (ix2 (0 : Fin 1) (0 : Fin 1)) ?_ ?_).trans ?_
  · intro b hb; fin_cases b
    · rfl
    · exact absurd rfl hb
  · rfl
  change (HloOp.result _ _ (Proc.devRef .tc main_arg7)) _ = _
  read_results

set_option maxHeartbeats 1000000 in
/-- Column 7 of the scalar row is the first mixing weight of the sine stage. -/
theorem scalar7 (c : Dev nD) :
    (atEntry m c main_v18 : S1x18.Idx → Elt Ideal .f32) (ix2 (0 : Fin 1) (7 : Fin 18)) = m ((c : Thread nD τ).loc main_arg8) (ix2 (0 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (7 : Fin 18)) rfl (ix2 (0 : Fin 1) (7 : Fin 16)) ?_).trans ?_
  · intro b; fin_cases b <;> rfl
  rw [binary_result_ne]; rotate_left; decide
  rw [nary_result]
  refine (concatenate_apply_piece (t := S1x16) (1 : Fin 2) _ _ (ix2 (0 : Fin 1) (7 : Fin 16)) 7 (by simp) S1x1 _ rfl rfl 7 (by rfl)
    (ix2 (0 : Fin 1) (0 : Fin 1)) ?_ ?_).trans ?_
  · intro b hb; fin_cases b
    · rfl
    · exact absurd rfl hb
  · rfl
  change (HloOp.result _ _ (Proc.devRef .tc main_v8)) _ = _
  read_results
  exact extractStridedSlice_apply (s := S2x1) (t := S1x1) ![0, 0] _ slices_S2x1_S1x1_0_0 (ix2 (0 : Fin 1) (0 : Fin 1)) (ix2 (0 : Fin 2) (0 : Fin 1))
    (by intro a; fin_cases a <;> rfl)

set_option maxHeartbeats 1000000 in
/-- Column 8 of the scalar row is the second mixing weight of the sine stage. -/
theorem scalar8 (c : Dev nD) :
    (atEntry m c main_v18 : S1x18.Idx → Elt Ideal .f32) (ix2 (0 : Fin 1) (8 : Fin 18)) = m ((c : Thread nD τ).loc main_arg8) (ix2 (1 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (8 : Fin 18)) rfl (ix2 (0 : Fin 1) (8 : Fin 16)) ?_).trans ?_
  · intro b; fin_cases b <;> rfl
  rw [binary_result_ne]; rotate_left; decide
  rw [nary_result]
  refine (concatenate_apply_piece (t := S1x16) (1 : Fin 2) _ _ (ix2 (0 : Fin 1) (8 : Fin 16)) 8 (by simp) S1x1 _ rfl rfl 8 (by rfl)
    (ix2 (0 : Fin 1) (0 : Fin 1)) ?_ ?_).trans ?_
  · intro b hb; fin_cases b
    · rfl
    · exact absurd rfl hb
  · rfl
  change (HloOp.result _ _ (Proc.devRef .tc main_v9)) _ = _
  read_results
  exact extractStridedSlice_apply (s := S2x1) (t := S1x1) ![1, 0] _ slices_S2x1_S1x1_1_0 (ix2 (0 : Fin 1) (0 : Fin 1)) (ix2 (1 : Fin 2) (0 : Fin 1))
    (by intro a; fin_cases a <;> rfl)

set_option maxHeartbeats 1000000 in
/-- Column 9 of the scalar row is the gate weight of the cosine stage. -/
theorem scalar9 (c : Dev nD) :
    (atEntry m c main_v18 : S1x18.Idx → Elt Ideal .f32) (ix2 (0 : Fin 1) (9 : Fin 18)) = m ((c : Thread nD τ).loc main_arg9) (ix2 (0 : Fin 1) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (9 : Fin 18)) rfl (ix2 (0 : Fin 1) (9 : Fin 16)) ?_).trans ?_
  · intro b; fin_cases b <;> rfl
  rw [binary_result_ne]; rotate_left; decide
  rw [nary_result]
  refine (concatenate_apply_piece (t := S1x16) (1 : Fin 2) _ _ (ix2 (0 : Fin 1) (9 : Fin 16)) 9 (by simp) S1x1 _ rfl rfl 9 (by rfl)
    (ix2 (0 : Fin 1) (0 : Fin 1)) ?_ ?_).trans ?_
  · intro b hb; fin_cases b
    · rfl
    · exact absurd rfl hb
  · rfl
  change (HloOp.result _ _ (Proc.devRef .tc main_arg9)) _ = _
  read_results

set_option maxHeartbeats 1000000 in
/-- Column 10 of the scalar row is the first mixing weight of the cosine stage. -/
theorem scalar10 (c : Dev nD) :
    (atEntry m c main_v18 : S1x18.Idx → Elt Ideal .f32) (ix2 (0 : Fin 1) (10 : Fin 18)) = m ((c : Thread nD τ).loc main_arg10) (ix2 (0 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (10 : Fin 18)) rfl (ix2 (0 : Fin 1) (10 : Fin 16)) ?_).trans ?_
  · intro b; fin_cases b <;> rfl
  rw [binary_result_ne]; rotate_left; decide
  rw [nary_result]
  refine (concatenate_apply_piece (t := S1x16) (1 : Fin 2) _ _ (ix2 (0 : Fin 1) (10 : Fin 16)) 10 (by simp) S1x1 _ rfl rfl 10 (by rfl)
    (ix2 (0 : Fin 1) (0 : Fin 1)) ?_ ?_).trans ?_
  · intro b hb; fin_cases b
    · rfl
    · exact absurd rfl hb
  · rfl
  change (HloOp.result _ _ (Proc.devRef .tc main_v10)) _ = _
  read_results
  exact extractStridedSlice_apply (s := S2x1) (t := S1x1) ![0, 0] _ slices_S2x1_S1x1_0_0 (ix2 (0 : Fin 1) (0 : Fin 1)) (ix2 (0 : Fin 2) (0 : Fin 1))
    (by intro a; fin_cases a <;> rfl)

set_option maxHeartbeats 1000000 in
/-- Column 11 of the scalar row is the second mixing weight of the cosine stage. -/
theorem scalar11 (c : Dev nD) :
    (atEntry m c main_v18 : S1x18.Idx → Elt Ideal .f32) (ix2 (0 : Fin 1) (11 : Fin 18)) = m ((c : Thread nD τ).loc main_arg10) (ix2 (1 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (11 : Fin 18)) rfl (ix2 (0 : Fin 1) (11 : Fin 16)) ?_).trans ?_
  · intro b; fin_cases b <;> rfl
  rw [binary_result_ne]; rotate_left; decide
  rw [nary_result]
  refine (concatenate_apply_piece (t := S1x16) (1 : Fin 2) _ _ (ix2 (0 : Fin 1) (11 : Fin 16)) 11 (by simp) S1x1 _ rfl rfl 11 (by rfl)
    (ix2 (0 : Fin 1) (0 : Fin 1)) ?_ ?_).trans ?_
  · intro b hb; fin_cases b
    · rfl
    · exact absurd rfl hb
  · rfl
  change (HloOp.result _ _ (Proc.devRef .tc main_v11)) _ = _
  read_results
  exact extractStridedSlice_apply (s := S2x1) (t := S1x1) ![1, 0] _ slices_S2x1_S1x1_1_0 (ix2 (0 : Fin 1) (0 : Fin 1)) (ix2 (1 : Fin 2) (0 : Fin 1))
    (by intro a; fin_cases a <;> rfl)

end Cert.KernelIdeal.HostValues

end
-- ==== Proof.IdealScalarsC.lean ====
/-
  The row of eighteen scalars the region stages, read column by column: columns 12–17.

  The host prefix builds the row by concatenation along its one long axis: sixteen 1 × 1 pieces, then two more. Each
  piece is an entry of a parameter array: a rank-1 bias re-laid as 1 × 1, a 1 × 1 slice of a 2 × 1 or 129 × 1 column,
  or a 1 × 1 parameter as it is. Reading column `n` of the row therefore means: find the piece whose span along the
  long axis holds `n` (each piece has extent one, so it is piece `n`), and read that piece at its only entry.
-/
import proofs.«161042_j43276090474801_1_alg».proof.Proof.IdealHostRows

set_option maxRecDepth 16384

noncomputable section

namespace Cert.KernelIdeal.HostValues

open Cert.KernelIdeal Cert.KernelIdeal.Gen Cert.KernelIdeal.Region
open Idealize.ShloMosaic Idealize.ShloMosaic.TcCoe Idealize.ShloMosaic.ValueIdx Idealize.ShloMosaic.StableHlo
open Idealize.SL.Sem

variable (m : (ℓ : Loc nD τ sig) → Buf (Elt Ideal) ℓ)

set_option maxHeartbeats 1000000 in
/-- Column 12 of the scalar row is the gate weight of the exponential stage. -/
theorem scalar12 (c : Dev nD) :
    (atEntry m c main_v18 : S1x18.Idx → Elt Ideal .f32) (ix2 (0 : Fin 1) (12 : Fin 18)) = m ((c : Thread nD τ).loc main_arg11) (ix2 (0 : Fin 1) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (12 : Fin 18)) rfl (ix2 (0 : Fin 1) (12 : Fin 16)) ?_).trans ?_
  · intro b; fin_cases b <;> rfl
  rw [binary_result_ne]; rotate_left; decide
  rw [nary_result]
  refine (concatenate_apply_piece (t := S1x16) (1 : Fin 2) _ _ (ix2 (0 : Fin 1) (12 : Fin 16)) 12 (by simp) S1x1 _ rfl rfl 12 (by rfl)
    (ix2 (0 : Fin 1) (0 : Fin 1)) ?_ ?_).trans ?_
  · intro b hb; fin_cases b
    · rfl
    · exact absurd rfl hb
  · rfl
  change (HloOp.result _ _ (Proc.devRef .tc main_arg11)) _ = _
  read_results

set_option maxHeartbeats 1000000 in
/-- Column 13 of the scalar row is the first mixing weight of the exponential stage. -/
theorem scalar13 (c : Dev nD) :
    (atEntry m c main_v18 : S1x18.Idx → Elt Ideal .f32) (ix2 (0 : Fin 1) (13 : Fin 18)) = m ((c : Thread nD τ).loc main_arg12) (ix2 (0 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (13 : Fin 18)) rfl (ix2 (0 : Fin 1) (13 : Fin 16)) ?_).trans ?_
  · intro b; fin_cases b <;> rfl
  rw [binary_result_ne]; rotate_left; decide
  rw [nary_result]
  refine (concatenate_apply_piece (t := S1x16) (1 : Fin 2) _ _ (ix2 (0 : Fin 1) (13 : Fin 16)) 13 (by simp) S1x1 _ rfl rfl 13 (by rfl)
    (ix2 (0 : Fin 1) (0 : Fin 1)) ?_ ?_).trans ?_
  · intro b hb; fin_cases b
    · rfl
    · exact absurd rfl hb
  · rfl
  change (HloOp.result _ _ (Proc.devRef .tc main_v12)) _ = _
  read_results
  exact extractStridedSlice_apply (s := S2x1) (t := S1x1) ![0, 0] _ slices_S2x1_S1x1_0_0 (ix2 (0 : Fin 1) (0 : Fin 1)) (ix2 (0 : Fin 2) (0 : Fin 1))
    (by intro a; fin_cases a <;> rfl)

set_option maxHeartbeats 1000000 in
/-- Column 14 of the scalar row is the second mixing weight of the exponential stage. -/
theorem scalar14 (c : Dev nD) :
    (atEntry m c main_v18 : S1x18.Idx → Elt Ideal .f32) (ix2 (0 : Fin 1) (14 : Fin 18)) = m ((c : Thread nD τ).loc main_arg12) (ix2 (1 : Fin 2) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (14 : Fin 18)) rfl (ix2 (0 : Fin 1) (14 : Fin 16)) ?_).trans ?_
  · intro b; fin_cases b <;> rfl
  rw [binary_result_ne]; rotate_left; decide
  rw [nary_result]
  refine (concatenate_apply_piece (t := S1x16) (1 : Fin 2) _ _ (ix2 (0 : Fin 1) (14 : Fin 16)) 14 (by simp) S1x1 _ rfl rfl 14 (by rfl)
    (ix2 (0 : Fin 1) (0 : Fin 1)) ?_ ?_).trans ?_
  · intro b hb; fin_cases b
    · rfl
    · exact absurd rfl hb
  · rfl
  change (HloOp.result _ _ (Proc.devRef .tc main_v13)) _ = _
  read_results
  exact extractStridedSlice_apply (s := S2x1) (t := S1x1) ![1, 0] _ slices_S2x1_S1x1_1_0 (ix2 (0 : Fin 1) (0 : Fin 1)) (ix2 (1 : Fin 2) (0 : Fin 1))
    (by intro a; fin_cases a <;> rfl)

set_option maxHeartbeats 1000000 in
/-- Column 15 of the scalar row is the gate weight of the tanh stage. -/
theorem scalar15 (c : Dev nD) :
    (atEntry m c main_v18 : S1x18.Idx → Elt Ideal .f32) (ix2 (0 : Fin 1) (15 : Fin 18)) = m ((c : Thread nD τ).loc main_arg13) (ix2 (0 : Fin 1) (0 : Fin 1)) := by
  dsimp only [atEntry, hostOps0]
  simp only [after_cons, after_nil]
  rw [binary_result]
  refine (concatenate_pair_apply_left (t := S1x18) (s₁ := S1x16) (s₂ := S1x2) (1 : Fin 2) _ _ concatenates_S1x16_S1x2_S1x18_d1
    (ix2 (0 : Fin 1) (15 : Fin 18)) rfl (ix2 (0 : Fin 1) (15 : Fin 16)) ?_).trans ?_
  · intro b; fin_cases b <;> rfl
  rw [binary_result_ne]; rotate_left; decide
  rw [nary_result]
  refine (concatenate_apply_piece (t := S1x16) (1 : Fin 2) _ _ (ix2 (0 : Fin 1) (15 : Fin 16)) 15 (by simp) S1x1 _ rfl rfl 15 (by rfl)
    (ix2 (0 : Fin 1) (0 : Fin 1)) ?_ ?_).trans ?_
  · intro b hb; fin_cases b
    · rfl
    · exact absurd rfl hb
  · rfl
  change (HloOp.result _ _ (Proc.devRef .tc main_arg13)) _ = _
  read_results

set_option maxHeartbeats 1000000 in
/-- Column 16 of the scalar row is the first mixing weight of the tanh stage. -/
theorem scalar16 (c : Dev nD) :
    (atEntry m c main_v18 : S1x18.Idx → Elt Ideal .f32) (ix2 (0 : Fin 1) (16 : Fin 18)) = m ((c : Thread nD τ).loc main_arg14) (ix2 (0 : Fin 2) (0 : Fin 1)) := by
  dsimp only [atEntry, hostOps0]
  simp only [after_cons, after_nil]
  rw [binary_result]
  refine (concatenate_pair_apply_right (t := S1x18) (s₁ := S1x16) (s₂ := S1x2) (1 : Fin 2) _ _ concatenates_S1x16_S1x2_S1x18_d1
    (ix2 (0 : Fin 1) (16 : Fin 18)) rfl rfl (ix2 (0 : Fin 1) (0 : Fin 2)) ?_ ?_).trans ?_
  · intro b hb; fin_cases b
    · rfl
    · exact absurd rfl hb
  · rfl
  rw [binary_result]
  refine (concatenate_pair_apply_left (t := S1x2) (s₁ := S1x1) (s₂ := S1x1) (1 : Fin 2) _ _ concatenates_S1x1_S1x1_S1x2_d1
    (ix2 (0 : Fin 1) (0 : Fin 2)) rfl (ix2 (0 : Fin 1) (0 : Fin 1)) ?_).trans ?_
  · intro b; fin_cases b <;> rfl
  read_results
  exact extractStridedSlice_apply (s := S2x1) (t := S1x1) ![0, 0] _ slices_S2x1_S1x1_0_0 (ix2 (0 : Fin 1) (0 : Fin 1)) (ix2 (0 : Fin 2) (0 : Fin 1))
    (by intro a; fin_cases a <;> rfl)

set_option maxHeartbeats 1000000 in
/-- Column 17 of the scalar row is the second mixing weight of the tanh stage. -/
theorem scalar17 (c : Dev nD) :
    (atEntry m c main_v18 : S1x18.Idx → Elt Ideal .f32) (ix2 (0 : Fin 1) (17 : Fin 18)) = m ((c : Thread nD τ).loc main_arg14) (ix2 (1 : Fin 2) (0 : Fin 1)) := by
  dsimp only [atEntry, hostOps0]
  simp only [after_cons, after_nil]
  rw [binary_result]
  refine (concatenate_pair_apply_right (t := S1x18) (s₁ := S1x16) (s₂ := S1x2) (1 : Fin 2) _ _ concatenates_S1x16_S1x2_S1x18_d1
    (ix2 (0 : Fin 1) (17 : Fin 18)) rfl rfl (ix2 (0 : Fin 1) (1 : Fin 2)) ?_ ?_).trans ?_
  · intro b hb; fin_cases b
    · rfl
    · exact absurd rfl hb
  · rfl
  rw [binary_result]
  refine (concatenate_pair_apply_right (t := S1x2) (s₁ := S1x1) (s₂ := S1x1) (1 : Fin 2) _ _ concatenates_S1x1_S1x1_S1x2_d1
    (ix2 (0 : Fin 1) (1 : Fin 2)) rfl rfl (ix2 (0 : Fin 1) (0 : Fin 1)) ?_ ?_).trans ?_
  · intro b hb; fin_cases b
    · rfl
    · exact absurd rfl hb
  · rfl
  read_results
  exact extractStridedSlice_apply (s := S2x1) (t := S1x1) ![1, 0] _ slices_S2x1_S1x1_1_0 (ix2 (0 : Fin 1) (0 : Fin 1)) (ix2 (1 : Fin 2) (0 : Fin 1))
    (by intro a; fin_cases a <;> rfl)

end Cert.KernelIdeal.HostValues

end
-- ==== Proof.IdealResult.lean ====
/-
  The kernel's result array after the run, as one function of the launch contents.

  At grid point `t` the region stages rows 4096·t … 4096·t + 4095 of the input, the two weight rows and the scalar row
  whole, and writes the stored column back to rows 4096·t … of the result. Row `r` of the stored column is the
  specification's row function of row `r` of the staged block, of the weight rows and of the scalars; the staged block's
  row `r` is row 4096·t + r of the input, the weight rows are the parameter columns re-laid, the scalars are the
  parameter entries the host prefix gathered. So what point `t` writes back is block `t` of the specification's result.
  The 256 blocks are disjoint and fill the 1048576 rows (row `i` lies in block `i / 4096`), so the result array ends at
  the specification's result everywhere.
-/
import proofs.«161042_j43276090474801_1_alg».proof.Proof.IdealRun
import proofs.«161042_j43276090474801_1_alg».proof.Proof.IdealRowValue
import proofs.«161042_j43276090474801_1_alg».proof.Proof.IdealHostRows
import proofs.«161042_j43276090474801_1_alg».proof.Proof.IdealScalarsA
import proofs.«161042_j43276090474801_1_alg».proof.Proof.IdealScalarsB
import proofs.«161042_j43276090474801_1_alg».proof.Proof.IdealScalarsC
import proofs.«161042_j43276090474801_1_alg».proof.Proof.Spec
import Idealize.ShloMosaic.Lib.Pipeline.Value

set_option maxRecDepth 16384

noncomputable section

namespace Cert.KernelIdeal.Result

open Cert.KernelIdeal Cert.KernelIdeal.Gen Cert.KernelIdeal.Region Cert.KernelIdeal.HostValues Cert.KernelIdeal.RowValue
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The specification's result at core `c`'s launch contents. -/
abbrev expected (c : Dev nD) : S1048576x1.Idx → Elt Ideal .f32 :=
  Cert.Spec.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem offsets_zero : (![0, 0] : Fin 2 → Nat) = fun _ => 0 := funext fun a => by fin_cases a <;> rfl

/-- The staged scalar row, column by column, is the specification's scalars. -/
theorem scalar_row (c : Dev nD) (n : Fin 18) :
    (atEntry m c main_v18 : S1x18.Idx → Elt Ideal .f32) (ix2 (0 : Fin 1) n)
      = Cert.Spec.scalars (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) n := by
  fin_cases n
  · exact scalar0 m c
  · exact scalar1 m c
  · exact scalar2 m c
  · exact scalar3 m c
  · exact scalar4 m c
  · exact scalar5 m c
  · exact scalar6 m c
  · exact scalar7 m c
  · exact scalar8 m c
  · exact scalar9 m c
  · exact scalar10 m c
  · exact scalar11 m c
  · exact scalar12 m c
  · exact scalar13 m c
  · exact scalar14 m c
  · exact scalar15 m c
  · exact scalar16 m c
  · exact scalar17 m c

/-- The printed index maps, decided over the grid: the input's and the result's row block is the point's number,
    every other block index is zero. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is block `t` of the specification's result. -/
theorem writes_back (c : Dev nD) (t : Fin cfg0.N) :
    (dats m 0 c).flushed 4 t = ((cfg0.win 4).blk t).view.read (Elt Ideal) (expected m c) := by
  show (cfg0.win 4).cut (grid0.coords t) ((dats m 0 c).after 4 t) = _
  rw [after_out]
  unfold leftInOut
  rw [View.canon_unit_zero offsets_zero]
  simp only [View.ld_unit_zero (S := S4096x128) offsets_zero, View.ld_unit_zero (S := S1x128) offsets_zero,
    View.ld_unit_zero (S := S1x18) offsets_zero]
  obtain ⟨e00, e01, e10, e11, e20, e21, e30, e31, e40, e41⟩ := block_indices t
  funext j
  obtain ⟨r, rfl⟩ : ∃ r : Fin 4096, j = ix2 r (0 : Fin 1) :=
    ⟨j 0, funext fun a => by
      match a with
      | ⟨0, _⟩ => rfl
      | ⟨1, _⟩ =>
        apply Fin.ext
        have h1 : (j 1).val < 1 := (j 1).isLt
        show (j 1).val = 0
        omega⟩
  show stored (F := Ideal) (blockAt m c 0 t) (blockAt m c 1 t) (blockAt m c 2 t) (blockAt m c 3 t) (ix2 r (0 : Fin 1))
    = expected m c (((cfg0.win 4).blk t).view.emb (ix2 r (0 : Fin 1)))
  rw [stored_row]
  unfold expected Cert.Spec.result
  have hx : (fun k : Fin 128 => blockAt m c 0 t (ix2 r k))
      = fun k : Fin 128 => m ((c : Thread nD τ).loc main_arg0) (ix2 ((((cfg0.win 4).blk t).view.emb (ix2 r (0 : Fin 1))) 0) k) := by
    funext k
    show atEntry m c main_arg0 (((cfg0.win 0).blk t).view.emb (ix2 r k)) = _
    rw [atEntry_arg0]
    refine congrArg _ (funext fun a => Fin.ext ?_)
    match a with
    | ⟨0, _⟩ =>
      show win0_0.index t (0 : Fin 2) * 4096 + 1 * r.val = win0_4.index t (0 : Fin 2) * 4096 + 1 * r.val
      omega
    | ⟨1, _⟩ =>
      show win0_0.index t (1 : Fin 2) * 128 + 1 * k.val = k.val
      omega
  have hwp : (fun k : Fin 128 => blockAt m c 1 t (ix2 (0 : Fin 1) k))
      = fun k : Fin 128 => m ((c : Thread nD τ).loc main_arg1) (ix2 k (0 : Fin 1)) := by
    funext k
    show (atEntry m c main_v0 : S1x128.Idx → Elt Ideal .f32) (((cfg0.win 1).blk t).view.emb (ix2 (0 : Fin 1) k)) = _
    rw [← product_row m c k]
    refine congrArg _ (funext fun a => Fin.ext ?_)
    match a with
    | ⟨0, _⟩ => show win0_1.index t (0 : Fin 2) * 1 + 1 * 0 = 0; omega
    | ⟨1, _⟩ => show win0_1.index t (1 : Fin 2) * 128 + 1 * k.val = k.val; omega
  have hws : (fun k : Fin 128 => blockAt m c 2 t (ix2 (0 : Fin 1) k))
      = fun k : Fin 128 => m ((c : Thread nD τ).loc main_arg3) (ix2 (Fin.castSucc k : Fin 129) (0 : Fin 1)) := by
    funext k
    show (atEntry m c main_v2 : S1x128.Idx → Elt Ideal .f32) (((cfg0.win 2).blk t).view.emb (ix2 (0 : Fin 1) k)) = _
    rw [← linear_row m c k]
    refine congrArg _ (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  have hsc : (fun n : Fin 18 => blockAt m c 3 t (ix2 (0 : Fin 1) n))
      = Cert.Spec.scalars (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
    funext n
    show (atEntry m c main_v18 : S1x18.Idx → Elt Ideal .f32) (((cfg0.win 3).blk t).view.emb (ix2 (0 : Fin 1) n)) = _
    rw [← scalar_row m c n]
    refine congrArg _ (funext fun a => Fin.ext ?_)
    match a with
    | ⟨0, _⟩ => show win0_3.index t (0 : Fin 2) * 1 + 1 * 0 = 0; omega
    | ⟨1, _⟩ => show win0_3.index t (1 : Fin 2) * 18 + 1 * n.val = n.val; omega
  rw [hx, hwp, hws, hsc]

/-- An index of the result array is in point `t`'s block iff each coordinate is in the block's range on its axis. -/
theorem in_block (t : Fin cfg0.N) (i : S1048576x1.Idx) :
    i ∈ ((cfg0.win 4).blk t).view.set
      ↔ ∀ a : Fin 2, win0_4.index t a * S4096x1.size a ≤ (i a).val ∧ (i a).val < win0_4.index t a * S4096x1.size a + S4096x1.size a := by
  show i ∈ ((View.whole main_v19).slice (win0_4.rect t)).set ↔ _
  rw [View.set_slice_whole, Rect.mem_set_unit]
  exact Iff.rfl

/-- Every row of the result lies in the block of the point numbered by its quotient by 4096. -/
theorem blocks_cover (i : S1048576x1.Idx) :
    ∃ t : Fin cfg0.N, (cfg0.win 4).flush t = true ∧ i ∈ ((cfg0.win 4).blk t).view.set := by
  have hi0 : (i 0).val < 1048576 := (i 0).isLt
  have hi1 : (i 1).val < 1 := (i 1).isLt
  have hN : cfg0.N = 256 := N_0
  let t : Fin cfg0.N := ⟨(i 0).val / 4096, by rw [hN]; omega⟩
  obtain ⟨-, -, -, -, -, -, -, -, e40, e41⟩ := block_indices t
  have ht : t.val = (i 0).val / 4096 := rfl
  refine ⟨t, flush0_4 t, ?_⟩
  rw [in_block]
  intro a
  match a with
  | ⟨0, _⟩ =>
    show win0_4.index t (0 : Fin 2) * 4096 ≤ (i 0).val ∧ (i 0).val < win0_4.index t (0 : Fin 2) * 4096 + 4096
    omega
  | ⟨1, _⟩ =>
    show win0_4.index t (1 : Fin 2) * 1 ≤ (i 1).val ∧ (i 1).val < win0_4.index t (1 : Fin 2) * 1 + 1
    omega

/-- The result array after the run is the specification's result of the launch contents. -/
theorem final (c : Dev nD) : (dats m 0 c).arrAt 4 cfg0.N = expected m c :=
  (dats m 0 c).arrAt_eq_of_cover 4 (expected m c) (fun t _ => writes_back m c t) (blocks_cover)

/-- The kernel's run, read: every weakly fair execution terminates, nothing faulting, with the result array at the
    specification's result of the launch contents and the fifteen arguments unchanged. -/
theorem run : θ_run defs (onTc (τ := τ) (main (F := Ideal))) ⟨m, fun _ => 0, ρ⟩ (fun r => ∀ c : Dev nD,
      r.2.mem ((c.tc : Thread nD τ).loc main_v19) = expected m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).1 4).trans (final m c),
      ((h c).1 0).trans ((((dats m) 0 c).arrAt_in 0 rfl _).trans ((arrays_at_entry m c 0).trans (atEntry_arg0 m c))),
      ((h c).2 main_arg1 (Pipeline.mem_restRefs_of main_arg1 (by decide) (by decide))).trans (atEntry_arg1 m c),
      ((h c).2 main_arg2 (Pipeline.mem_restRefs_of main_arg2 (by decide) (by decide))).trans (atEntry_arg2 m c),
      ((h c).2 main_arg3 (Pipeline.mem_restRefs_of main_arg3 (by decide) (by decide))).trans (atEntry_arg3 m c),
      ((h c).2 main_arg4 (Pipeline.mem_restRefs_of main_arg4 (by decide) (by decide))).trans (atEntry_arg4 m c),
      ((h c).2 main_arg5 (Pipeline.mem_restRefs_of main_arg5 (by decide) (by decide))).trans (atEntry_arg5 m c),
      ((h c).2 main_arg6 (Pipeline.mem_restRefs_of main_arg6 (by decide) (by decide))).trans (atEntry_arg6 m c),
      ((h c).2 main_arg7 (Pipeline.mem_restRefs_of main_arg7 (by decide) (by decide))).trans (atEntry_arg7 m c),
      ((h c).2 main_arg8 (Pipeline.mem_restRefs_of main_arg8 (by decide) (by decide))).trans (atEntry_arg8 m c),
      ((h c).2 main_arg9 (Pipeline.mem_restRefs_of main_arg9 (by decide) (by decide))).trans (atEntry_arg9 m c),
      ((h c).2 main_arg10 (Pipeline.mem_restRefs_of main_arg10 (by decide) (by decide))).trans (atEntry_arg10 m c),
      ((h c).2 main_arg11 (Pipeline.mem_restRefs_of main_arg11 (by decide) (by decide))).trans (atEntry_arg11 m c),
      ((h c).2 main_arg12 (Pipeline.mem_restRefs_of main_arg12 (by decide) (by decide))).trans (atEntry_arg12 m c),
      ((h c).2 main_arg13 (Pipeline.mem_restRefs_of main_arg13 (by decide) (by decide))).trans (atEntry_arg13 m c),
      ((h c).2 main_arg14 (Pipeline.mem_restRefs_of main_arg14 (by decide) (by decide))).trans (atEntry_arg14 m c)⟩) (run_main m ρ)

end Cert.KernelIdeal.Result

end
-- ==== Proof.RefIsSpec.lean ====
/-
  The reference program's result, read at the ideal instance, is the specification function.

  Row `i` of the reference's last operation is a two-term sum: the pair (gate, h) of row `i` against a 2×1 weight,
  where gate = max (f h · d, 0) and h is the row's value one stage below. The pair is a concatenation of two
  one-column arrays along the column axis, so column 0 reads the gate and column 1 reads h; the 1×1 gate weight,
  reshaped to a scalar and broadcast down the column, reads its one element; the zero of the clamp is the zero
  word broadcast. That is one gated stage of the specification, and there are five of them (log|·|, sin, cos, exp, tanh).
  Below them the linear form is a 129-term sum over the row of `x` with the product of powers appended: the first
  128 terms read `x` (the concatenation's left piece), the last reads the product of powers (its right piece, at
  column 128), and a sum over 129 terms is the sum over the first 128 plus the last. The product of powers is the
  exponential of a 128-term sum of log|x| against a weight column, plus a bias.
-/
import proofs.«161042_j43276090474801_1_alg».proof.Proof.RefRead
import proofs.«161042_j43276090474801_1_alg».proof.Proof.Spec

noncomputable section

namespace Cert.RefBridge

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-! ## Reading the layout operations: a pair of columns, a 1×1 weight as a scalar -/

/-- The only column index of a one-column array is 0. -/
theorem col0 (i : S1048576x1.Idx) : (i 1).val = 0 := by
  have h1 : (i 1).val < 1 := (i 1).isLt
  omega

/-- The column-pair `[g, h]` read at column 0 of row `i` is `g` at row `i`. -/
theorem pair_left (g h : S1048576x1.Idx → EReal) (i : S1048576x1.Idx) :
    concatenate S1048576x2 1 [⟨S1048576x1, g⟩, ⟨S1048576x1, h⟩] concatenates_S1048576x1_S1048576x1_S1048576x2_d1 (lidx_main_v19 i 0) = g i := by
  refine concatenate_pair_apply_left (1 : Fin S1048576x2.rank) g h _ (lidx_main_v19 i 0) rfl i ?_
  intro b
  match b with
  | ⟨0, _⟩ => rfl
  | ⟨1, _⟩ => exact col0 i

/-- The column-pair `[g, h]` read at column 1 of row `i` is `h` at row `i`. -/
theorem pair_right (g h : S1048576x1.Idx → EReal) (i : S1048576x1.Idx) :
    concatenate S1048576x2 1 [⟨S1048576x1, g⟩, ⟨S1048576x1, h⟩] concatenates_S1048576x1_S1048576x1_S1048576x2_d1 (lidx_main_v19 i 1) = h i := by
  refine concatenate_pair_apply_right (1 : Fin S1048576x2.rank) g h _ (lidx_main_v19 i 1) rfl rfl i ?_ ?_
  · intro b hb
    match b, hb with
    | ⟨0, _⟩, _ => rfl
    | ⟨1, _⟩, hb => exact absurd rfl hb
  · have h0 := col0 i
    show (i 1).val + 1 = 1
    omega

/-- The weight index a row's `k`-th term meets: row `k` of the one-column weight. -/
theorem ridx2 (i : S1048576x1.Idx) (k : Fin 2) : ridx_main_v19 i k = ix2 k 0 := funext fun a => Fin.ext (by
  match a with
  | ⟨0, _⟩ => rfl
  | ⟨1, _⟩ => exact col0 i)

/-- A row of the pair `[g, h]` against the two weights `W`: the two-term sum, written out. -/
theorem dot_pair (g h : S1048576x1.Idx → EReal) (W : S2x1.Idx → EReal) (i : S1048576x1.Idx) :
    (∑ k : Fin 2, concatenate S1048576x2 1 [⟨S1048576x1, g⟩, ⟨S1048576x1, h⟩] concatenates_S1048576x1_S1048576x1_S1048576x2_d1 (lidx_main_v19 i k) * W (ridx_main_v19 i k))
      = g i * W (ix2 0 0) + h i * W (ix2 1 0) := by
  rw [Cert.Spec.sum_2, pair_left, pair_right, ridx2, ridx2]

/-- A 1×1 array reshaped to a scalar reads its one element. -/
theorem gate_read (d : S1x1.Idx → EReal) (j : S_.Idx) : shapeCast S_ d shapeCasts_S1x1_S_ j = d (ix2 0 0) := by
  refine shapeCast_apply d shapeCasts_S1x1_S_ j (ix2 0 0) ?_
  have hj : (S_.rowMajor j).val = 0 := Shape.rowMajorPi_zero _ _
  rw [hj, Shape.rowMajor_val_two]
  rfl

/-! ## The five gated stages -/

/-- Stage `ln`: a row of the result is the gated stage of the same row one stage below. -/
theorem stage_ln (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (x5 : (⟨S1x1, .f32⟩ : BufTy).Contents (Elt Ideal)) (x6 : (⟨S2x1, .f32⟩ : BufTy).Contents (Elt Ideal)) (i : S1048576x1.Idx) :
    val_main_v19 (F := Ideal) x0 x1 x2 x3 x4 x5 x6 i
      = Cert.Spec.stage (fun h => Ideal.log (Cert.Spec.absE h)) (x5 (ix2 0 0)) (x6 (ix2 0 0)) (x6 (ix2 1 0)) (val_main_v11 (F := Ideal) x0 x1 x2 x3 x4 i) := by
  rw [val_main_v19_apply]
  refine (dot_pair _ _ x6 i).trans ?_
  rw [val_main_v17_apply, val_main_v16_apply, val_main_v15_apply, val_main_call0_v0_apply, val_main_call0_cst_apply, val_main_v13_apply, val_main_v12_apply]
  unfold val_main_v14
  rw [gate_read]
  rfl

/-- Stage `sin`: a row of the result is the gated stage of the same row one stage below. -/
theorem stage_sin (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (x5 : (⟨S1x1, .f32⟩ : BufTy).Contents (Elt Ideal)) (x6 : (⟨S2x1, .f32⟩ : BufTy).Contents (Elt Ideal)) (x7 : (⟨S1x1, .f32⟩ : BufTy).Contents (Elt Ideal)) (x8 : (⟨S2x1, .f32⟩ : BufTy).Contents (Elt Ideal)) (i : S1048576x1.Idx) :
    val_main_v26 (F := Ideal) x0 x1 x2 x3 x4 x5 x6 x7 x8 i
      = Cert.Spec.stage Ideal.sin (x7 (ix2 0 0)) (x8 (ix2 0 0)) (x8 (ix2 1 0)) (val_main_v19 (F := Ideal) x0 x1 x2 x3 x4 x5 x6 i) := by
  rw [val_main_v26_apply]
  refine (dot_pair _ _ x8 i).trans ?_
  rw [val_main_v24_apply, val_main_v23_apply, val_main_v22_apply, val_main_call1_v0_apply, val_main_call1_cst_apply, val_main_v20_apply]
  unfold val_main_v21
  rw [gate_read]
  rfl

/-- Stage `cos`: a row of the result is the gated stage of the same row one stage below. -/
theorem stage_cos (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (x5 : (⟨S1x1, .f32⟩ : BufTy).Contents (Elt Ideal)) (x6 : (⟨S2x1, .f32⟩ : BufTy).Contents (Elt Ideal)) (x7 : (⟨S1x1, .f32⟩ : BufTy).Contents (Elt Ideal)) (x8 : (⟨S2x1, .f32⟩ : BufTy).Contents (Elt Ideal)) (x9 : (⟨S1x1, .f32⟩ : BufTy).Contents (Elt Ideal)) (x10 : (⟨S2x1, .f32⟩ : BufTy).Contents (Elt Ideal)) (i : S1048576x1.Idx) :
    val_main_v33 (F := Ideal) x0 x1 x2 x3 x4 x5 x6 x7 x8 x9 x10 i
      = Cert.Spec.stage Ideal.cos (x9 (ix2 0 0)) (x10 (ix2 0 0)) (x10 (ix2 1 0)) (val_main_v26 (F := Ideal) x0 x1 x2 x3 x4 x5 x6 x7 x8 i) := by
  rw [val_main_v33_apply]
  refine (dot_pair _ _ x10 i).trans ?_
  rw [val_main_v31_apply, val_main_v30_apply, val_main_v29_apply, val_main_call2_v0_apply, val_main_call2_cst_apply, val_main_v27_apply]
  unfold val_main_v28
  rw [gate_read]
  rfl

/-- Stage `exp`: a row of the result is the gated stage of the same row one stage below. -/
theorem stage_exp (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (x5 : (⟨S1x1, .f32⟩ : BufTy).Contents (Elt Ideal)) (x6 : (⟨S2x1, .f32⟩ : BufTy).Contents (Elt Ideal)) (x7 : (⟨S1x1, .f32⟩ : BufTy).Contents (Elt Ideal)) (x8 : (⟨S2x1, .f32⟩ : BufTy).Contents (Elt Ideal)) (x9 : (⟨S1x1, .f32⟩ : BufTy).Contents (Elt Ideal)) (x10 : (⟨S2x1, .f32⟩ : BufTy).Contents (Elt Ideal)) (x11 : (⟨S1x1, .f32⟩ : BufTy).Contents (Elt Ideal)) (x12 : (⟨S2x1, .f32⟩ : BufTy).Contents (Elt Ideal)) (i : S1048576x1.Idx) :
    val_main_v40 (F := Ideal) x0 x1 x2 x3 x4 x5 x6 x7 x8 x9 x10 x11 x12 i
      = Cert.Spec.stage Ideal.exp (x11 (ix2 0 0)) (x12 (ix2 0 0)) (x12 (ix2 1 0)) (val_main_v33 (F := Ideal) x0 x1 x2 x3 x4 x5 x6 x7 x8 x9 x10 i) := by
  rw [val_main_v40_apply]
  refine (dot_pair _ _ x12 i).trans ?_
  rw [val_main_v38_apply, val_main_v37_apply, val_main_v36_apply, val_main_call3_v0_apply, val_main_call3_cst_apply, val_main_v34_apply]
  unfold val_main_v35
  rw [gate_read]
  rfl

/-- Stage `tanh`: a row of the result is the gated stage of the same row one stage below. -/
theorem stage_tanh (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (x5 : (⟨S1x1, .f32⟩ : BufTy).Contents (Elt Ideal)) (x6 : (⟨S2x1, .f32⟩ : BufTy).Contents (Elt Ideal)) (x7 : (⟨S1x1, .f32⟩ : BufTy).Contents (Elt Ideal)) (x8 : (⟨S2x1, .f32⟩ : BufTy).Contents (Elt Ideal)) (x9 : (⟨S1x1, .f32⟩ : BufTy).Contents (Elt Ideal)) (x10 : (⟨S2x1, .f32⟩ : BufTy).Contents (Elt Ideal)) (x11 : (⟨S1x1, .f32⟩ : BufTy).Contents (Elt Ideal)) (x12 : (⟨S2x1, .f32⟩ : BufTy).Contents (Elt Ideal)) (x13 : (⟨S1x1, .f32⟩ : BufTy).Contents (Elt Ideal)) (x14 : (⟨S2x1, .f32⟩ : BufTy).Contents (Elt Ideal)) (i : S1048576x1.Idx) :
    val_main_v47 (F := Ideal) x0 x1 x2 x3 x4 x5 x6 x7 x8 x9 x10 x11 x12 x13 x14 i
      = Cert.Spec.stage Ideal.tanh (x13 (ix2 0 0)) (x14 (ix2 0 0)) (x14 (ix2 1 0)) (val_main_v40 (F := Ideal) x0 x1 x2 x3 x4 x5 x6 x7 x8 x9 x10 x11 x12 i) := by
  rw [val_main_v47_apply]
  refine (dot_pair _ _ x14 i).trans ?_
  rw [val_main_v45_apply, val_main_v44_apply, val_main_v43_apply, val_main_call4_v0_apply, val_main_call4_cst_apply, val_main_v41_apply]
  unfold val_main_v42
  rw [gate_read]
  rfl

/-! ## The product of powers and the linear form -/

/-- The row of `x` with `p` appended, read at one of its first 128 columns, is `x`. -/
theorem row129_left (g : S1048576x128.Idx → EReal) (h : S1048576x1.Idx → EReal) (i : S1048576x1.Idx) (k : Fin 128) :
    concatenate S1048576x129 1 [⟨S1048576x128, g⟩, ⟨S1048576x1, h⟩] concatenates_S1048576x128_S1048576x1_S1048576x129_d1 (lidx_main_v8 i (Fin.castSucc k)) = g (ix2 (i 0) k) := by
  refine concatenate_pair_apply_left (1 : Fin S1048576x129.rank) g h _ (lidx_main_v8 i (Fin.castSucc k)) rfl (ix2 (i 0) k) ?_
  intro b
  match b with
  | ⟨0, _⟩ => rfl
  | ⟨1, _⟩ => rfl

/-- The row of `x` with `p` appended, read at its last column, is `p`. -/
theorem row129_right (g : S1048576x128.Idx → EReal) (h : S1048576x1.Idx → EReal) (i : S1048576x1.Idx) :
    concatenate S1048576x129 1 [⟨S1048576x128, g⟩, ⟨S1048576x1, h⟩] concatenates_S1048576x128_S1048576x1_S1048576x129_d1 (lidx_main_v8 i (Fin.last 128)) = h i := by
  refine concatenate_pair_apply_right (1 : Fin S1048576x129.rank) g h _ (lidx_main_v8 i (Fin.last 128)) rfl rfl i ?_ ?_
  · intro b hb
    match b, hb with
    | ⟨0, _⟩, _ => rfl
    | ⟨1, _⟩, hb => exact absurd rfl hb
  · have h0 := col0 i
    show (i 1).val + 128 = 128
    omega

/-- The weight index a row's `k`-th term of the 129-term sum meets. -/
theorem ridx129 (i : S1048576x1.Idx) (k : Fin 129) : ridx_main_v8 i k = ix2 k 0 := funext fun a => Fin.ext (by
  match a with
  | ⟨0, _⟩ => rfl
  | ⟨1, _⟩ => exact col0 i)

/-- The two indices a row's `k`-th term of the 128-term sum meets. -/
theorem lidx128 (i : S1048576x1.Idx) (k : Fin 128) : lidx_main_v2 i k = ix2 (i 0) k := funext fun a => Fin.ext (by
  match a with
  | ⟨0, _⟩ => rfl
  | ⟨1, _⟩ => rfl)
theorem ridx128 (i : S1048576x1.Idx) (k : Fin 128) : ridx_main_v2 i k = ix2 k 0 := funext fun a => Fin.ext (by
  match a with
  | ⟨0, _⟩ => rfl
  | ⟨1, _⟩ => exact col0 i)

/-- A one-element bias broadcast down the column reads its one element. -/
theorem bias_idx (j : S1x1.Idx) : idx_main_v3 j = ix1 0 := funext fun a => by
  match a with
  | ⟨0, _⟩ => rfl

theorem bias_idx' (j : S1x1.Idx) : idx_main_v9 j = ix1 0 := funext fun a => by
  match a with
  | ⟨0, _⟩ => rfl

/-- The product of powers of a row. -/
theorem powers_read (x0 : (⟨S1048576x128, .f32⟩ : BufTy).Contents (Elt Ideal)) (x1 : (⟨S128x1, .f32⟩ : BufTy).Contents (Elt Ideal)) (x2 : (⟨S1, .f32⟩ : BufTy).Contents (Elt Ideal)) (i : S1048576x1.Idx) :
    val_main_v6 (F := Ideal) x0 x1 x2 i
      = Cert.Spec.powers (fun k => x0 (ix2 (i 0) k)) (fun k => x1 (ix2 k 0)) (x2 (ix1 0)) := by
  rw [val_main_v6_apply, val_main_v5_apply, val_main_v2_apply, val_main_v4_apply, val_main_v3_apply, bias_idx]
  unfold Cert.Spec.powers
  have hs : (∑ k : Fin 128, val_main_v1 (F := Ideal) x0 (lidx_main_v2 i k) * x1 (ridx_main_v2 i k))
      = ∑ k : Fin 128, Ideal.log (Cert.Spec.absE (x0 (ix2 (i 0) k))) * x1 (ix2 k 0) :=
    Finset.sum_congr rfl fun k _ => by rw [lidx128, ridx128]; rfl
  rw [hs]
  rfl

/-- The linear form in a row and its product of powers. -/
theorem linear_read (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (i : S1048576x1.Idx) :
    val_main_v11 (F := Ideal) x0 x1 x2 x3 x4 i
      = Cert.Spec.linear (fun k => x0 (ix2 (i 0) k)) (fun k => x3 (ix2 (Fin.castSucc k : Fin 129) 0))
          (val_main_v6 (F := Ideal) x0 x1 x2 i) (x3 (ix2 128 0)) (x4 (ix1 0)) := by
  rw [val_main_v11_apply, val_main_v8_apply, val_main_v10_apply, val_main_v9_apply, bias_idx']
  unfold val_main_v7
  rw [Cert.Spec.sum_129, row129_right, ridx129]
  have hs : (∑ k : Fin 128, concatenate S1048576x129 1 [⟨S1048576x128, x0⟩, ⟨S1048576x1, val_main_v6 (F := Ideal) x0 x1 x2⟩] concatenates_S1048576x128_S1048576x1_S1048576x129_d1 (lidx_main_v8 i (Fin.castSucc k)) * x3 (ridx_main_v8 i (Fin.castSucc k)))
      = ∑ k : Fin 128, x0 (ix2 (i 0) k) * x3 (ix2 (Fin.castSucc k : Fin 129) 0) :=
    Finset.sum_congr rfl fun k _ => by rw [row129_left, ridx129]
  rw [hs]
  rfl

/-! ## The reference's result is the specification -/

theorem reference_is_spec (x0 : (⟨S1048576x128, .f32⟩ : BufTy).Contents (Elt Ideal)) (x1 : (⟨S128x1, .f32⟩ : BufTy).Contents (Elt Ideal)) (x2 : (⟨S1, .f32⟩ : BufTy).Contents (Elt Ideal)) (x3 : (⟨S129x1, .f32⟩ : BufTy).Contents (Elt Ideal)) (x4 : (⟨S1, .f32⟩ : BufTy).Contents (Elt Ideal)) (x5 : (⟨S1x1, .f32⟩ : BufTy).Contents (Elt Ideal)) (x6 : (⟨S2x1, .f32⟩ : BufTy).Contents (Elt Ideal)) (x7 : (⟨S1x1, .f32⟩ : BufTy).Contents (Elt Ideal)) (x8 : (⟨S2x1, .f32⟩ : BufTy).Contents (Elt Ideal)) (x9 : (⟨S1x1, .f32⟩ : BufTy).Contents (Elt Ideal)) (x10 : (⟨S2x1, .f32⟩ : BufTy).Contents (Elt Ideal)) (x11 : (⟨S1x1, .f32⟩ : BufTy).Contents (Elt Ideal)) (x12 : (⟨S2x1, .f32⟩ : BufTy).Contents (Elt Ideal)) (x13 : (⟨S1x1, .f32⟩ : BufTy).Contents (Elt Ideal)) (x14 : (⟨S2x1, .f32⟩ : BufTy).Contents (Elt Ideal)) :
    Cert.ReferenceIdeal.ReadP.val_main_v47 (F := Ideal) x0 x1 x2 x3 x4 x5 x6 x7 x8 x9 x10 x11 x12 x13 x14 = Cert.Spec.result x0 x1 x2 x3 x4 x5 x6 x7 x8 x9 x10 x11 x12 x13 x14 := by
  funext i
  rw [stage_tanh, stage_exp, stage_cos, stage_sin, stage_ln, linear_read, powers_read]
  rfl

end Cert.RefBridge

end
-- ==== Proof.RefRun.lean ====
/-
  The reference program's run, read back at its last stage.

  The program is a straight line of 58 host operations. Run in order from the launch's contents, each rewrites the one
  buffer it writes and leaves the rest, so what the result buffer holds at the end is a composition of the
  operations' functions over the fifteen arguments. The composition is read in six steps rather than at once: after
  the first twelve operations the buffer of the linear form holds that form of the arguments; each later group of
  operations is one gated stage, which reads the buffer of the stage below (twice: once through the gate, once
  directly), one gate weight and one pair of mixing weights, and writes its own buffer. Stating each step over
  arbitrary contents that hold the stage below keeps every step's term the size of one stage. The arguments are
  written by no operation, so they are unchanged throughout.
-/
import proofs.«161042_j43276090474801_1_alg».proof.Proof.RefRead
import Idealize.ShloMosaic.Lib.StableHlo.Run

noncomputable section

namespace Cert.RefBridge

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 58 operations, in order (a called function's operations stand in its call's place, spelt `TRef.…`). -/
abbrev ops : List (HloOp τ sig (Elt F)) :=
  [ unary main_arg0 main_v0 (Host.absf : (⟨S1048576x128, .f32⟩ : BufTy).Contents (Elt F) → (⟨S1048576x128, .f32⟩ : BufTy).Contents (Elt F)),
    unary main_v0 main_v1 (Host.log : (⟨S1048576x128, .f32⟩ : BufTy).Contents (Elt F) → (⟨S1048576x128, .f32⟩ : BufTy).Contents (Elt F)),
    binary main_v1 main_arg1 main_v2 ((fun l r => Host.dotGeneral dot_S1048576x128_S128x1_S1048576x1_1_0_0_1_n_n none l r) : (⟨S1048576x128, .f32⟩ : BufTy).Contents (Elt F) → (⟨S128x1, .f32⟩ : BufTy).Contents (Elt F) → (⟨S1048576x1, .f32⟩ : BufTy).Contents (Elt F)),
    unary main_arg2 main_v3 (broadcastInDim S1x1 ![1] bcast_S1_S1x1_1 : (⟨S1, .f32⟩ : BufTy).Contents (Elt F) → (⟨S1x1, .f32⟩ : BufTy).Contents (Elt F)),
    unary main_v3 main_v4 (broadcastInDim S1048576x1 ![0, 1] bcast_S1x1_S1048576x1_0_1 : (⟨S1x1, .f32⟩ : BufTy).Contents (Elt F) → (⟨S1048576x1, .f32⟩ : BufTy).Contents (Elt F)),
    binary main_v2 main_v4 main_v5 (addf : (⟨S1048576x1, .f32⟩ : BufTy).Contents (Elt F) → (⟨S1048576x1, .f32⟩ : BufTy).Contents (Elt F) → (⟨S1048576x1, .f32⟩ : BufTy).Contents (Elt F)),
    unary main_v5 main_v6 (Host.exp : (⟨S1048576x1, .f32⟩ : BufTy).Contents (Elt F) → (⟨S1048576x1, .f32⟩ : BufTy).Contents (Elt F)),
    binary main_arg0 main_v6 main_v7 ((fun a b => concatenate S1048576x129 1 [⟨S1048576x128, a⟩, ⟨S1048576x1, b⟩] concatenates_S1048576x128_S1048576x1_S1048576x129_d1) : (⟨S1048576x128, .f32⟩ : BufTy).Contents (Elt F) → (⟨S1048576x1, .f32⟩ : BufTy).Contents (Elt F) → (⟨S1048576x129, .f32⟩ : BufTy).Contents (Elt F)),
    binary main_v7 main_arg3 main_v8 ((fun l r => Host.dotGeneral dot_S1048576x129_S129x1_S1048576x1_1_0_0_1_n_n none l r) : (⟨S1048576x129, .f32⟩ : BufTy).Contents (Elt F) → (⟨S129x1, .f32⟩ : BufTy).Contents (Elt F) → (⟨S1048576x1, .f32⟩ : BufTy).Contents (Elt F)),
    unary main_arg4 main_v9 (broadcastInDim S1x1 ![1] bcast_S1_S1x1_1 : (⟨S1, .f32⟩ : BufTy).Contents (Elt F) → (⟨S1x1, .f32⟩ : BufTy).Contents (Elt F)),
    unary main_v9 main_v10 (broadcastInDim S1048576x1 ![0, 1] bcast_S1x1_S1048576x1_0_1 : (⟨S1x1, .f32⟩ : BufTy).Contents (Elt F) → (⟨S1048576x1, .f32⟩ : BufTy).Contents (Elt F)),
    binary main_v8 main_v10 main_v11 (addf : (⟨S1048576x1, .f32⟩ : BufTy).Contents (Elt F) → (⟨S1048576x1, .f32⟩ : BufTy).Contents (Elt F) → (⟨S1048576x1, .f32⟩ : BufTy).Contents (Elt F)),
    unary main_v11 main_v12 (Host.absf : (⟨S1048576x1, .f32⟩ : BufTy).Contents (Elt F) → (⟨S1048576x1, .f32⟩ : BufTy).Contents (Elt F)),
    unary main_v12 main_v13 (Host.log : (⟨S1048576x1, .f32⟩ : BufTy).Contents (Elt F) → (⟨S1048576x1, .f32⟩ : BufTy).Contents (Elt F)),
    reshape main_arg5 main_v14 rfl shapeCasts_S1x1_S_,
    unary main_v14 main_v15 (broadcastInDim S1048576x1 ![] bcast_S_S1048576x1 : (⟨S_, .f32⟩ : BufTy).Contents (Elt F) → (⟨S1048576x1, .f32⟩ : BufTy).Contents (Elt F)),
    binary main_v13 main_v15 main_v16 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1048576x1, .f32⟩) main_call0_v0) (broadcastInDim S1048576x1 ![] bcast_S_S1048576x1),
    TRef.binary (TRef.of (T := ⟨S1048576x1, .f32⟩) main_v16) (TRef.of (T := ⟨S1048576x1, .f32⟩) main_call0_v0) (TRef.of (T := ⟨S1048576x1, .f32⟩) main_v17) maximumf,
    binary main_v17 main_v11 main_v18 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v18 main_arg6 main_v19 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)),
    unary main_v19 main_v20 (Host.sin : (⟨S1048576x1, .f32⟩ : BufTy).Contents (Elt F) → (⟨S1048576x1, .f32⟩ : BufTy).Contents (Elt F)),
    reshape main_arg7 main_v21 rfl shapeCasts_S1x1_S_,
    unary main_v21 main_v22 (broadcastInDim S1048576x1 ![] bcast_S_S1048576x1 : (⟨S_, .f32⟩ : BufTy).Contents (Elt F) → (⟨S1048576x1, .f32⟩ : BufTy).Contents (Elt F)),
    binary main_v20 main_v22 main_v23 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1048576x1, .f32⟩) main_call1_v0) (broadcastInDim S1048576x1 ![] bcast_S_S1048576x1),
    TRef.binary (TRef.of (T := ⟨S1048576x1, .f32⟩) main_v23) (TRef.of (T := ⟨S1048576x1, .f32⟩) main_call1_v0) (TRef.of (T := ⟨S1048576x1, .f32⟩) main_v24) maximumf,
    binary main_v24 main_v19 main_v25 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v25 main_arg8 main_v26 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)),
    unary main_v26 main_v27 (Host.cos : (⟨S1048576x1, .f32⟩ : BufTy).Contents (Elt F) → (⟨S1048576x1, .f32⟩ : BufTy).Contents (Elt F)),
    reshape main_arg9 main_v28 rfl shapeCasts_S1x1_S_,
    unary main_v28 main_v29 (broadcastInDim S1048576x1 ![] bcast_S_S1048576x1 : (⟨S_, .f32⟩ : BufTy).Contents (Elt F) → (⟨S1048576x1, .f32⟩ : BufTy).Contents (Elt F)),
    binary main_v27 main_v29 main_v30 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1048576x1, .f32⟩) main_call2_v0) (broadcastInDim S1048576x1 ![] bcast_S_S1048576x1),
    TRef.binary (TRef.of (T := ⟨S1048576x1, .f32⟩) main_v30) (TRef.of (T := ⟨S1048576x1, .f32⟩) main_call2_v0) (TRef.of (T := ⟨S1048576x1, .f32⟩) main_v31) maximumf,
    binary main_v31 main_v26 main_v32 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v32 main_arg10 main_v33 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)),
    unary main_v33 main_v34 (Host.exp : (⟨S1048576x1, .f32⟩ : BufTy).Contents (Elt F) → (⟨S1048576x1, .f32⟩ : BufTy).Contents (Elt F)),
    reshape main_arg11 main_v35 rfl shapeCasts_S1x1_S_,
    unary main_v35 main_v36 (broadcastInDim S1048576x1 ![] bcast_S_S1048576x1 : (⟨S_, .f32⟩ : BufTy).Contents (Elt F) → (⟨S1048576x1, .f32⟩ : BufTy).Contents (Elt F)),
    binary main_v34 main_v36 main_v37 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1048576x1, .f32⟩) main_call3_v0) (broadcastInDim S1048576x1 ![] bcast_S_S1048576x1),
    TRef.binary (TRef.of (T := ⟨S1048576x1, .f32⟩) main_v37) (TRef.of (T := ⟨S1048576x1, .f32⟩) main_call3_v0) (TRef.of (T := ⟨S1048576x1, .f32⟩) main_v38) maximumf,
    binary main_v38 main_v33 main_v39 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v39 main_arg12 main_v40 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)),
    unary main_v40 main_v41 (Host.tanh : (⟨S1048576x1, .f32⟩ : BufTy).Contents (Elt F) → (⟨S1048576x1, .f32⟩ : BufTy).Contents (Elt F)),
    reshape main_arg13 main_v42 rfl shapeCasts_S1x1_S_,
    unary main_v42 main_v43 (broadcastInDim S1048576x1 ![] bcast_S_S1048576x1 : (⟨S_, .f32⟩ : BufTy).Contents (Elt F) → (⟨S1048576x1, .f32⟩ : BufTy).Contents (Elt F)),
    binary main_v41 main_v43 main_v44 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1048576x1, .f32⟩) main_call4_v0) (broadcastInDim S1048576x1 ![] bcast_S_S1048576x1),
    TRef.binary (TRef.of (T := ⟨S1048576x1, .f32⟩) main_v44) (TRef.of (T := ⟨S1048576x1, .f32⟩) main_call4_v0) (TRef.of (T := ⟨S1048576x1, .f32⟩) main_v45) maximumf,
    binary main_v45 main_v40 main_v46 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v46 main_arg14 main_v47 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., binary_bufs_sub .., binary_bufs_sub .., unary_bufs_sub .., unary_bufs_sub .., binary_bufs_sub .., unary_bufs_sub .., unary_bufs_sub .., reshape_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., nullary_bufs_sub .., unary_bufs_sub .., binary_bufs_sub .., binary_bufs_sub .., binary_bufs_sub .., unary_bufs_sub .., reshape_bufs_sub .., unary_bufs_sub .., binary_bufs_sub .., nullary_bufs_sub .., unary_bufs_sub .., binary_bufs_sub .., binary_bufs_sub .., binary_bufs_sub ..⟩

/-! ## The line cut at the stage boundaries -/

/-- Operations 0 to 11: the product of powers and the linear form. -/
abbrev ops1 : List (HloOp τ sig (Elt F)) :=
  [ unary main_arg0 main_v0 (Host.absf : (⟨S1048576x128, .f32⟩ : BufTy).Contents (Elt F) → (⟨S1048576x128, .f32⟩ : BufTy).Contents (Elt F)),
    unary main_v0 main_v1 (Host.log : (⟨S1048576x128, .f32⟩ : BufTy).Contents (Elt F) → (⟨S1048576x128, .f32⟩ : BufTy).Contents (Elt F)),
    binary main_v1 main_arg1 main_v2 ((fun l r => Host.dotGeneral dot_S1048576x128_S128x1_S1048576x1_1_0_0_1_n_n none l r) : (⟨S1048576x128, .f32⟩ : BufTy).Contents (Elt F) → (⟨S128x1, .f32⟩ : BufTy).Contents (Elt F) → (⟨S1048576x1, .f32⟩ : BufTy).Contents (Elt F)),
    unary main_arg2 main_v3 (broadcastInDim S1x1 ![1] bcast_S1_S1x1_1 : (⟨S1, .f32⟩ : BufTy).Contents (Elt F) → (⟨S1x1, .f32⟩ : BufTy).Contents (Elt F)),
    unary main_v3 main_v4 (broadcastInDim S1048576x1 ![0, 1] bcast_S1x1_S1048576x1_0_1 : (⟨S1x1, .f32⟩ : BufTy).Contents (Elt F) → (⟨S1048576x1, .f32⟩ : BufTy).Contents (Elt F)),
    binary main_v2 main_v4 main_v5 (addf : (⟨S1048576x1, .f32⟩ : BufTy).Contents (Elt F) → (⟨S1048576x1, .f32⟩ : BufTy).Contents (Elt F) → (⟨S1048576x1, .f32⟩ : BufTy).Contents (Elt F)),
    unary main_v5 main_v6 (Host.exp : (⟨S1048576x1, .f32⟩ : BufTy).Contents (Elt F) → (⟨S1048576x1, .f32⟩ : BufTy).Contents (Elt F)),
    binary main_arg0 main_v6 main_v7 ((fun a b => concatenate S1048576x129 1 [⟨S1048576x128, a⟩, ⟨S1048576x1, b⟩] concatenates_S1048576x128_S1048576x1_S1048576x129_d1) : (⟨S1048576x128, .f32⟩ : BufTy).Contents (Elt F) → (⟨S1048576x1, .f32⟩ : BufTy).Contents (Elt F) → (⟨S1048576x129, .f32⟩ : BufTy).Contents (Elt F)),
    binary main_v7 main_arg3 main_v8 ((fun l r => Host.dotGeneral dot_S1048576x129_S129x1_S1048576x1_1_0_0_1_n_n none l r) : (⟨S1048576x129, .f32⟩ : BufTy).Contents (Elt F) → (⟨S129x1, .f32⟩ : BufTy).Contents (Elt F) → (⟨S1048576x1, .f32⟩ : BufTy).Contents (Elt F)),
    unary main_arg4 main_v9 (broadcastInDim S1x1 ![1] bcast_S1_S1x1_1 : (⟨S1, .f32⟩ : BufTy).Contents (Elt F) → (⟨S1x1, .f32⟩ : BufTy).Contents (Elt F)),
    unary main_v9 main_v10 (broadcastInDim S1048576x1 ![0, 1] bcast_S1x1_S1048576x1_0_1 : (⟨S1x1, .f32⟩ : BufTy).Contents (Elt F) → (⟨S1048576x1, .f32⟩ : BufTy).Contents (Elt F)),
    binary main_v8 main_v10 main_v11 (addf : (⟨S1048576x1, .f32⟩ : BufTy).Contents (Elt F) → (⟨S1048576x1, .f32⟩ : BufTy).Contents (Elt F) → (⟨S1048576x1, .f32⟩ : BufTy).Contents (Elt F)) ]

/-- Operations 12 to 21: stage 1. -/
abbrev ops2 : List (HloOp τ sig (Elt F)) :=
  [ unary main_v11 main_v12 (Host.absf : (⟨S1048576x1, .f32⟩ : BufTy).Contents (Elt F) → (⟨S1048576x1, .f32⟩ : BufTy).Contents (Elt F)),
    unary main_v12 main_v13 (Host.log : (⟨S1048576x1, .f32⟩ : BufTy).Contents (Elt F) → (⟨S1048576x1, .f32⟩ : BufTy).Contents (Elt F)),
    reshape main_arg5 main_v14 rfl shapeCasts_S1x1_S_,
    unary main_v14 main_v15 (broadcastInDim S1048576x1 ![] bcast_S_S1048576x1 : (⟨S_, .f32⟩ : BufTy).Contents (Elt F) → (⟨S1048576x1, .f32⟩ : BufTy).Contents (Elt F)),
    binary main_v13 main_v15 main_v16 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1048576x1, .f32⟩) main_call0_v0) (broadcastInDim S1048576x1 ![] bcast_S_S1048576x1),
    TRef.binary (TRef.of (T := ⟨S1048576x1, .f32⟩) main_v16) (TRef.of (T := ⟨S1048576x1, .f32⟩) main_call0_v0) (TRef.of (T := ⟨S1048576x1, .f32⟩) main_v17) maximumf,
    binary main_v17 main_v11 main_v18 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v18 main_arg6 main_v19 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)) ]

/-- Operations 22 to 30: stage 2. -/
abbrev ops3 : List (HloOp τ sig (Elt F)) :=
  [ unary main_v19 main_v20 (Host.sin : (⟨S1048576x1, .f32⟩ : BufTy).Contents (Elt F) → (⟨S1048576x1, .f32⟩ : BufTy).Contents (Elt F)),
    reshape main_arg7 main_v21 rfl shapeCasts_S1x1_S_,
    unary main_v21 main_v22 (broadcastInDim S1048576x1 ![] bcast_S_S1048576x1 : (⟨S_, .f32⟩ : BufTy).Contents (Elt F) → (⟨S1048576x1, .f32⟩ : BufTy).Contents (Elt F)),
    binary main_v20 main_v22 main_v23 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S1048576x1, .f32⟩) main_call1_v0) (broadcastInDim S1048576x1 ![] bcast_S_S1048576x1),
    TRef.binary (TRef.of (T := ⟨S1048576x1, .f32⟩) main_v23) (TRef.of (T := ⟨S1048576x1, .f32⟩) main_call1_v0) (TRef.of (T := ⟨S1048576x1, .f32⟩) main_v24) maximumf,
    binary main_v24 main_v19 main_v25 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v25 main_arg8 main_v26 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)) ]

/-- Operations 31 to 39: stage 3. -/
abbrev ops4 : List (HloOp τ sig (Elt F)) :=
  [ unary main_v26 main_v27 (Host.cos : (⟨S1048576x1, .f32⟩ : BufTy).Contents (Elt F) → (⟨S1048576x1, .f32⟩ : BufTy).Contents (Elt F)),
    reshape main_arg9 main_v28 rfl shapeCasts_S1x1_S_,
    unary main_v28 main_v29 (broadcastInDim S1048576x1 ![] bcast_S_S1048576x1 : (⟨S_, .f32⟩ : BufTy).Contents (Elt F) → (⟨S1048576x1, .f32⟩ : BufTy).Contents (Elt F)),
    binary main_v27 main_v29 main_v30 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S1048576x1, .f32⟩) main_call2_v0) (broadcastInDim S1048576x1 ![] bcast_S_S1048576x1),
    TRef.binary (TRef.of (T := ⟨S1048576x1, .f32⟩) main_v30) (TRef.of (T := ⟨S1048576x1, .f32⟩) main_call2_v0) (TRef.of (T := ⟨S1048576x1, .f32⟩) main_v31) maximumf,
    binary main_v31 main_v26 main_v32 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v32 main_arg10 main_v33 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)) ]

/-- Operations 40 to 48: stage 4. -/
abbrev ops5 : List (HloOp τ sig (Elt F)) :=
  [ unary main_v33 main_v34 (Host.exp : (⟨S1048576x1, .f32⟩ : BufTy).Contents (Elt F) → (⟨S1048576x1, .f32⟩ : BufTy).Contents (Elt F)),
    reshape main_arg11 main_v35 rfl shapeCasts_S1x1_S_,
    unary main_v35 main_v36 (broadcastInDim S1048576x1 ![] bcast_S_S1048576x1 : (⟨S_, .f32⟩ : BufTy).Contents (Elt F) → (⟨S1048576x1, .f32⟩ : BufTy).Contents (Elt F)),
    binary main_v34 main_v36 main_v37 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S1048576x1, .f32⟩) main_call3_v0) (broadcastInDim S1048576x1 ![] bcast_S_S1048576x1),
    TRef.binary (TRef.of (T := ⟨S1048576x1, .f32⟩) main_v37) (TRef.of (T := ⟨S1048576x1, .f32⟩) main_call3_v0) (TRef.of (T := ⟨S1048576x1, .f32⟩) main_v38) maximumf,
    binary main_v38 main_v33 main_v39 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v39 main_arg12 main_v40 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)) ]

/-- Operations 49 to 57: stage 5. -/
abbrev ops6 : List (HloOp τ sig (Elt F)) :=
  [ unary main_v40 main_v41 (Host.tanh : (⟨S1048576x1, .f32⟩ : BufTy).Contents (Elt F) → (⟨S1048576x1, .f32⟩ : BufTy).Contents (Elt F)),
    reshape main_arg13 main_v42 rfl shapeCasts_S1x1_S_,
    unary main_v42 main_v43 (broadcastInDim S1048576x1 ![] bcast_S_S1048576x1 : (⟨S_, .f32⟩ : BufTy).Contents (Elt F) → (⟨S1048576x1, .f32⟩ : BufTy).Contents (Elt F)),
    binary main_v41 main_v43 main_v44 (mulf : (⟨S1048576x1, .f32⟩ : BufTy).Contents (Elt F) → (⟨S1048576x1, .f32⟩ : BufTy).Contents (Elt F) → (⟨S1048576x1, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S1048576x1, .f32⟩) main_call4_v0) (broadcastInDim S1048576x1 ![] bcast_S_S1048576x1),
    TRef.binary (TRef.of (T := ⟨S1048576x1, .f32⟩) main_v44) (TRef.of (T := ⟨S1048576x1, .f32⟩) main_call4_v0) (TRef.of (T := ⟨S1048576x1, .f32⟩) main_v45) maximumf,
    binary main_v45 main_v40 main_v46 ((fun a b => concatenate S1048576x2 1 [⟨S1048576x1, a⟩, ⟨S1048576x1, b⟩] concatenates_S1048576x1_S1048576x1_S1048576x2_d1) : (⟨S1048576x1, .f32⟩ : BufTy).Contents (Elt F) → (⟨S1048576x1, .f32⟩ : BufTy).Contents (Elt F) → (⟨S1048576x2, .f32⟩ : BufTy).Contents (Elt F)),
    binary main_v46 main_arg14 main_v47 ((fun l r => Host.dotGeneral dot_S1048576x2_S2x1_S1048576x1_1_0_0_1_n_n none l r) : (⟨S1048576x2, .f32⟩ : BufTy).Contents (Elt F) → (⟨S2x1, .f32⟩ : BufTy).Contents (Elt F) → (⟨S1048576x1, .f32⟩ : BufTy).Contents (Elt F)) ]

/-- The line is its six pieces in order. -/
theorem ops_split : (ops : List (HloOp τ sig (Elt F))) = ops1 ++ ops2 ++ ops3 ++ ops4 ++ ops5 ++ ops6 := rfl

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## One gated stage, and each stage's operations as one -/

/-- One gated stage on whole columns: the pair (gate, h) against the two mixing weights, the gate being the
    maximum of `f h` times the 1×1 gate weight and the zero word. -/
def gate (f : (⟨S1048576x1, .f32⟩ : BufTy).Contents (Elt F) → (⟨S1048576x1, .f32⟩ : BufTy).Contents (Elt F))
    (h : (⟨S1048576x1, .f32⟩ : BufTy).Contents (Elt F)) (d : (⟨S1x1, .f32⟩ : BufTy).Contents (Elt F))
    (w : (⟨S2x1, .f32⟩ : BufTy).Contents (Elt F)) : (⟨S1048576x1, .f32⟩ : BufTy).Contents (Elt F) :=
  Host.dotGeneral dot_S1048576x2_S2x1_S1048576x1_1_0_0_1_n_n none
    (concatenate S1048576x2 1 [⟨S1048576x1, maximumf (mulf (f h) (broadcastInDim S1048576x1 ![] bcast_S_S1048576x1 (shapeCast _ d shapeCasts_S1x1_S_)))
        (broadcastInDim S1048576x1 ![] bcast_S_S1048576x1 (constant S_ .f32 0x00000000#32))⟩, ⟨S1048576x1, h⟩]
      concatenates_S1048576x1_S1048576x1_S1048576x2_d1) w

/-- Stage log|·| of the reference is the gated stage of the stage below. -/
theorem v19_gate (x0 : (⟨S1048576x128, .f32⟩ : BufTy).Contents (Elt F)) (x1 : (⟨S128x1, .f32⟩ : BufTy).Contents (Elt F)) (x2 : (⟨S1, .f32⟩ : BufTy).Contents (Elt F)) (x3 : (⟨S129x1, .f32⟩ : BufTy).Contents (Elt F)) (x4 : (⟨S1, .f32⟩ : BufTy).Contents (Elt F)) (x5 : (⟨S1x1, .f32⟩ : BufTy).Contents (Elt F)) (x6 : (⟨S2x1, .f32⟩ : BufTy).Contents (Elt F)) :
    val_main_v19 (F := F) x0 x1 x2 x3 x4 x5 x6 = gate (fun h => Host.log (Host.absf h)) (val_main_v11 (F := F) x0 x1 x2 x3 x4) x5 x6 := rfl

/-- The ten operations of stage log|·|, run from any contents `W`, leave in `main_v19` the gated stage of what `W` holds
    in `main_v11` and in the stage's two weight arguments. -/
theorem step2 (W : Valuation τ sig (Elt F)) :
    after (ops2 (F := F)) W (Proc.devRef .tc main_v19) = gate (fun h => Host.log (Host.absf h)) (W (Proc.devRef .tc main_v11)) (W (Proc.devRef .tc main_arg5)) (W (Proc.devRef .tc main_arg6)) := by
  after_results_simp <;> rfl

/-- Stage sin of the reference is the gated stage of the stage below. -/
theorem v26_gate (x0 : (⟨S1048576x128, .f32⟩ : BufTy).Contents (Elt F)) (x1 : (⟨S128x1, .f32⟩ : BufTy).Contents (Elt F)) (x2 : (⟨S1, .f32⟩ : BufTy).Contents (Elt F)) (x3 : (⟨S129x1, .f32⟩ : BufTy).Contents (Elt F)) (x4 : (⟨S1, .f32⟩ : BufTy).Contents (Elt F)) (x5 : (⟨S1x1, .f32⟩ : BufTy).Contents (Elt F)) (x6 : (⟨S2x1, .f32⟩ : BufTy).Contents (Elt F)) (x7 : (⟨S1x1, .f32⟩ : BufTy).Contents (Elt F)) (x8 : (⟨S2x1, .f32⟩ : BufTy).Contents (Elt F)) :
    val_main_v26 (F := F) x0 x1 x2 x3 x4 x5 x6 x7 x8 = gate Host.sin (val_main_v19 (F := F) x0 x1 x2 x3 x4 x5 x6) x7 x8 := rfl

/-- The nine operations of stage sin, run from any contents `W`, leave in `main_v26` the gated stage of what `W` holds
    in `main_v19` and in the stage's two weight arguments. -/
theorem step3 (W : Valuation τ sig (Elt F)) :
    after (ops3 (F := F)) W (Proc.devRef .tc main_v26) = gate Host.sin (W (Proc.devRef .tc main_v19)) (W (Proc.devRef .tc main_arg7)) (W (Proc.devRef .tc main_arg8)) := by
  after_results_simp <;> rfl

/-- Stage cos of the reference is the gated stage of the stage below. -/
theorem v33_gate (x0 : (⟨S1048576x128, .f32⟩ : BufTy).Contents (Elt F)) (x1 : (⟨S128x1, .f32⟩ : BufTy).Contents (Elt F)) (x2 : (⟨S1, .f32⟩ : BufTy).Contents (Elt F)) (x3 : (⟨S129x1, .f32⟩ : BufTy).Contents (Elt F)) (x4 : (⟨S1, .f32⟩ : BufTy).Contents (Elt F)) (x5 : (⟨S1x1, .f32⟩ : BufTy).Contents (Elt F)) (x6 : (⟨S2x1, .f32⟩ : BufTy).Contents (Elt F)) (x7 : (⟨S1x1, .f32⟩ : BufTy).Contents (Elt F)) (x8 : (⟨S2x1, .f32⟩ : BufTy).Contents (Elt F)) (x9 : (⟨S1x1, .f32⟩ : BufTy).Contents (Elt F)) (x10 : (⟨S2x1, .f32⟩ : BufTy).Contents (Elt F)) :
    val_main_v33 (F := F) x0 x1 x2 x3 x4 x5 x6 x7 x8 x9 x10 = gate Host.cos (val_main_v26 (F := F) x0 x1 x2 x3 x4 x5 x6 x7 x8) x9 x10 := rfl

/-- The nine operations of stage cos, run from any contents `W`, leave in `main_v33` the gated stage of what `W` holds
    in `main_v26` and in the stage's two weight arguments. -/
theorem step4 (W : Valuation τ sig (Elt F)) :
    after (ops4 (F := F)) W (Proc.devRef .tc main_v33) = gate Host.cos (W (Proc.devRef .tc main_v26)) (W (Proc.devRef .tc main_arg9)) (W (Proc.devRef .tc main_arg10)) := by
  after_results_simp <;> rfl

/-- Stage exp of the reference is the gated stage of the stage below. -/
theorem v40_gate (x0 : (⟨S1048576x128, .f32⟩ : BufTy).Contents (Elt F)) (x1 : (⟨S128x1, .f32⟩ : BufTy).Contents (Elt F)) (x2 : (⟨S1, .f32⟩ : BufTy).Contents (Elt F)) (x3 : (⟨S129x1, .f32⟩ : BufTy).Contents (Elt F)) (x4 : (⟨S1, .f32⟩ : BufTy).Contents (Elt F)) (x5 : (⟨S1x1, .f32⟩ : BufTy).Contents (Elt F)) (x6 : (⟨S2x1, .f32⟩ : BufTy).Contents (Elt F)) (x7 : (⟨S1x1, .f32⟩ : BufTy).Contents (Elt F)) (x8 : (⟨S2x1, .f32⟩ : BufTy).Contents (Elt F)) (x9 : (⟨S1x1, .f32⟩ : BufTy).Contents (Elt F)) (x10 : (⟨S2x1, .f32⟩ : BufTy).Contents (Elt F)) (x11 : (⟨S1x1, .f32⟩ : BufTy).Contents (Elt F)) (x12 : (⟨S2x1, .f32⟩ : BufTy).Contents (Elt F)) :
    val_main_v40 (F := F) x0 x1 x2 x3 x4 x5 x6 x7 x8 x9 x10 x11 x12 = gate Host.exp (val_main_v33 (F := F) x0 x1 x2 x3 x4 x5 x6 x7 x8 x9 x10) x11 x12 := rfl

/-- The nine operations of stage exp, run from any contents `W`, leave in `main_v40` the gated stage of what `W` holds
    in `main_v33` and in the stage's two weight arguments. -/
theorem step5 (W : Valuation τ sig (Elt F)) :
    after (ops5 (F := F)) W (Proc.devRef .tc main_v40) = gate Host.exp (W (Proc.devRef .tc main_v33)) (W (Proc.devRef .tc main_arg11)) (W (Proc.devRef .tc main_arg12)) := by
  after_results_simp <;> rfl

/-- Stage tanh of the reference is the gated stage of the stage below. -/
theorem v47_gate (x0 : (⟨S1048576x128, .f32⟩ : BufTy).Contents (Elt F)) (x1 : (⟨S128x1, .f32⟩ : BufTy).Contents (Elt F)) (x2 : (⟨S1, .f32⟩ : BufTy).Contents (Elt F)) (x3 : (⟨S129x1, .f32⟩ : BufTy).Contents (Elt F)) (x4 : (⟨S1, .f32⟩ : BufTy).Contents (Elt F)) (x5 : (⟨S1x1, .f32⟩ : BufTy).Contents (Elt F)) (x6 : (⟨S2x1, .f32⟩ : BufTy).Contents (Elt F)) (x7 : (⟨S1x1, .f32⟩ : BufTy).Contents (Elt F)) (x8 : (⟨S2x1, .f32⟩ : BufTy).Contents (Elt F)) (x9 : (⟨S1x1, .f32⟩ : BufTy).Contents (Elt F)) (x10 : (⟨S2x1, .f32⟩ : BufTy).Contents (Elt F)) (x11 : (⟨S1x1, .f32⟩ : BufTy).Contents (Elt F)) (x12 : (⟨S2x1, .f32⟩ : BufTy).Contents (Elt F)) (x13 : (⟨S1x1, .f32⟩ : BufTy).Contents (Elt F)) (x14 : (⟨S2x1, .f32⟩ : BufTy).Contents (Elt F)) :
    val_main_v47 (F := F) x0 x1 x2 x3 x4 x5 x6 x7 x8 x9 x10 x11 x12 x13 x14 = gate Host.tanh (val_main_v40 (F := F) x0 x1 x2 x3 x4 x5 x6 x7 x8 x9 x10 x11 x12) x13 x14 := rfl

/-- The nine operations of stage tanh, run from any contents `W`, leave in `main_v47` the gated stage of what `W` holds
    in `main_v40` and in the stage's two weight arguments. -/
theorem step6 (W : Valuation τ sig (Elt F)) :
    after (ops6 (F := F)) W (Proc.devRef .tc main_v47) = gate Host.tanh (W (Proc.devRef .tc main_v40)) (W (Proc.devRef .tc main_arg13)) (W (Proc.devRef .tc main_arg14)) := by
  after_results_simp <;> rfl

/-! ## The six steps -/

/-- After the first 12 operations `main_v11` holds its stage of the arguments, and the arguments not yet read are unchanged. -/
theorem reach1 (V : Valuation τ sig (Elt F)) :
    after ops1 V (Proc.devRef .tc main_v11) = val_main_v11 (F := F) (V (Proc.devRef .tc main_arg0)) (V (Proc.devRef .tc main_arg1)) (V (Proc.devRef .tc main_arg2)) (V (Proc.devRef .tc main_arg3)) (V (Proc.devRef .tc main_arg4))
      ∧ after ops1 V (Proc.devRef .tc main_arg5) = V (Proc.devRef .tc main_arg5)
      ∧ after ops1 V (Proc.devRef .tc main_arg6) = V (Proc.devRef .tc main_arg6)
      ∧ after ops1 V (Proc.devRef .tc main_arg7) = V (Proc.devRef .tc main_arg7)
      ∧ after ops1 V (Proc.devRef .tc main_arg8) = V (Proc.devRef .tc main_arg8)
      ∧ after ops1 V (Proc.devRef .tc main_arg9) = V (Proc.devRef .tc main_arg9)
      ∧ after ops1 V (Proc.devRef .tc main_arg10) = V (Proc.devRef .tc main_arg10)
      ∧ after ops1 V (Proc.devRef .tc main_arg11) = V (Proc.devRef .tc main_arg11)
      ∧ after ops1 V (Proc.devRef .tc main_arg12) = V (Proc.devRef .tc main_arg12)
      ∧ after ops1 V (Proc.devRef .tc main_arg13) = V (Proc.devRef .tc main_arg13)
      ∧ after ops1 V (Proc.devRef .tc main_arg14) = V (Proc.devRef .tc main_arg14) := by
  refine ⟨?_, ?_, ?_, ?_, ?_, ?_, ?_, ?_, ?_, ?_, ?_⟩ <;> (after_results_simp <;> rfl)

/-- After the first 22 operations `main_v19` holds its stage of the arguments, and the arguments not yet read are unchanged. -/
theorem reach2 (V : Valuation τ sig (Elt F)) :
    after (ops1 ++ ops2) V (Proc.devRef .tc main_v19) = val_main_v19 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6))
      ∧ after (ops1 ++ ops2) V (Proc.devRef .tc main_arg7) = V (Proc.devRef .tc main_arg7)
      ∧ after (ops1 ++ ops2) V (Proc.devRef .tc main_arg8) = V (Proc.devRef .tc main_arg8)
      ∧ after (ops1 ++ ops2) V (Proc.devRef .tc main_arg9) = V (Proc.devRef .tc main_arg9)
      ∧ after (ops1 ++ ops2) V (Proc.devRef .tc main_arg10) = V (Proc.devRef .tc main_arg10)
      ∧ after (ops1 ++ ops2) V (Proc.devRef .tc main_arg11) = V (Proc.devRef .tc main_arg11)
      ∧ after (ops1 ++ ops2) V (Proc.devRef .tc main_arg12) = V (Proc.devRef .tc main_arg12)
      ∧ after (ops1 ++ ops2) V (Proc.devRef .tc main_arg13) = V (Proc.devRef .tc main_arg13)
      ∧ after (ops1 ++ ops2) V (Proc.devRef .tc main_arg14) = V (Proc.devRef .tc main_arg14) := by
  obtain ⟨hv, h5, h6, h7, h8, h9, h10, h11, h12, h13, h14⟩ := reach1 (F := F) V
  rw [after_append]
  generalize after ops1 V = W at hv h5 h6 h7 h8 h9 h10 h11 h12 h13 h14 ⊢
  refine ⟨?_, ?_, ?_, ?_, ?_, ?_, ?_, ?_, ?_⟩
  · rw [step2 W, hv, h5, h6, v19_gate]
  · after_results_simp
    exact h7
  · after_results_simp
    exact h8
  · after_results_simp
    exact h9
  · after_results_simp
    exact h10
  · after_results_simp
    exact h11
  · after_results_simp
    exact h12
  · after_results_simp
    exact h13
  · after_results_simp
    exact h14

/-- After the first 31 operations `main_v26` holds its stage of the arguments, and the arguments not yet read are unchanged. -/
theorem reach3 (V : Valuation τ sig (Elt F)) :
    after (ops1 ++ ops2 ++ ops3) V (Proc.devRef .tc main_v26) = val_main_v26 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      ∧ after (ops1 ++ ops2 ++ ops3) V (Proc.devRef .tc main_arg9) = V (Proc.devRef .tc main_arg9)
      ∧ after (ops1 ++ ops2 ++ ops3) V (Proc.devRef .tc main_arg10) = V (Proc.devRef .tc main_arg10)
      ∧ after (ops1 ++ ops2 ++ ops3) V (Proc.devRef .tc main_arg11) = V (Proc.devRef .tc main_arg11)
      ∧ after (ops1 ++ ops2 ++ ops3) V (Proc.devRef .tc main_arg12) = V (Proc.devRef .tc main_arg12)
      ∧ after (ops1 ++ ops2 ++ ops3) V (Proc.devRef .tc main_arg13) = V (Proc.devRef .tc main_arg13)
      ∧ after (ops1 ++ ops2 ++ ops3) V (Proc.devRef .tc main_arg14) = V (Proc.devRef .tc main_arg14) := by
  obtain ⟨hv, h7, h8, h9, h10, h11, h12, h13, h14⟩ := reach2 (F := F) V
  rw [after_append]
  generalize after (ops1 ++ ops2) V = W at hv h7 h8 h9 h10 h11 h12 h13 h14 ⊢
  refine ⟨?_, ?_, ?_, ?_, ?_, ?_, ?_⟩
  · rw [step3 W, hv, h7, h8, v26_gate]
  · after_results_simp
    exact h9
  · after_results_simp
    exact h10
  · after_results_simp
    exact h11
  · after_results_simp
    exact h12
  · after_results_simp
    exact h13
  · after_results_simp
    exact h14

/-- After the first 40 operations `main_v33` holds its stage of the arguments, and the arguments not yet read are unchanged. -/
theorem reach4 (V : Valuation τ sig (Elt F)) :
    after (ops1 ++ ops2 ++ ops3 ++ ops4) V (Proc.devRef .tc main_v33) = val_main_v33 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))
      ∧ after (ops1 ++ ops2 ++ ops3 ++ ops4) V (Proc.devRef .tc main_arg11) = V (Proc.devRef .tc main_arg11)
      ∧ after (ops1 ++ ops2 ++ ops3 ++ ops4) V (Proc.devRef .tc main_arg12) = V (Proc.devRef .tc main_arg12)
      ∧ after (ops1 ++ ops2 ++ ops3 ++ ops4) V (Proc.devRef .tc main_arg13) = V (Proc.devRef .tc main_arg13)
      ∧ after (ops1 ++ ops2 ++ ops3 ++ ops4) V (Proc.devRef .tc main_arg14) = V (Proc.devRef .tc main_arg14) := by
  obtain ⟨hv, h9, h10, h11, h12, h13, h14⟩ := reach3 (F := F) V
  rw [after_append]
  generalize after (ops1 ++ ops2 ++ ops3) V = W at hv h9 h10 h11 h12 h13 h14 ⊢
  refine ⟨?_, ?_, ?_, ?_, ?_⟩
  · rw [step4 W, hv, h9, h10, v33_gate]
  · after_results_simp
    exact h11
  · after_results_simp
    exact h12
  · after_results_simp
    exact h13
  · after_results_simp
    exact h14

/-- After the first 49 operations `main_v40` holds its stage of the arguments, and the arguments not yet read are unchanged. -/
theorem reach5 (V : Valuation τ sig (Elt F)) :
    after (ops1 ++ ops2 ++ ops3 ++ ops4 ++ ops5) V (Proc.devRef .tc main_v40) = val_main_v40 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12))
      ∧ after (ops1 ++ ops2 ++ ops3 ++ ops4 ++ ops5) V (Proc.devRef .tc main_arg13) = V (Proc.devRef .tc main_arg13)
      ∧ after (ops1 ++ ops2 ++ ops3 ++ ops4 ++ ops5) V (Proc.devRef .tc main_arg14) = V (Proc.devRef .tc main_arg14) := by
  obtain ⟨hv, h11, h12, h13, h14⟩ := reach4 (F := F) V
  rw [after_append]
  generalize after (ops1 ++ ops2 ++ ops3 ++ ops4) V = W at hv h11 h12 h13 h14 ⊢
  refine ⟨?_, ?_, ?_⟩
  · rw [step5 W, hv, h11, h12, v40_gate]
  · after_results_simp
    exact h13
  · after_results_simp
    exact h14

/-- After the first 58 operations `main_v47` holds its stage of the arguments. -/
theorem reach6 (V : Valuation τ sig (Elt F)) :
    after (ops1 ++ ops2 ++ ops3 ++ ops4 ++ ops5 ++ ops6) V (Proc.devRef .tc main_v47) = val_main_v47 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  obtain ⟨hv, h13, h14⟩ := reach5 (F := F) V
  rw [after_append]
  generalize after (ops1 ++ ops2 ++ ops3 ++ ops4 ++ ops5) V = W at hv h13 h14 ⊢
  rw [step6 W, hv, h13, h14, v47_gate]

/-! ## The run -/

set_option maxRecDepth 8192 in
set_option maxHeartbeats 2000000 in
/-- On every device, for any float values, from any memory with zero counters: every weakly fair execution of the
    reference terminates with its result buffer at the last stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = val_main_v47 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v47).trans (by rw [ops_split]; exact reach6 (F := F) (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.RefBridge

end
-- ==== Proof.lean ====
/-
  The certificate's claim: the three frames, the (empty) idealization ledger, and the equality of the two idealized
  programs' results on the extended reals.

  The kernel computes, row by row and 4096 rows at a grid point, a product of powers in log space, a linear form in the
  row and that product, and five gated stages (log|·|, sin, cos, exp, tanh); the reference computes the same with the
  linear form as one 129-term sum and each stage's mix as a 2-term sum. Both results are the one specification function
  of the argument arrays (`Cert.Spec.result`): the kernel's because each grid point writes back its block of it and the
  blocks fill the array, the reference's stage by stage. The two arrangements differ only in how finite sums are grouped,
  so the equality uses nothing of the precondition: it holds at every extended-real input.
  The frames: each kernel program's @main runs its host prefix, then its one region over 256 grid points, and no
  argument array is written; the reference's @main is a line of host operations, none of which writes an argument.
  The idealization rewrote no operation, so its ledger is empty.
-/
import proofs.«161042_j43276090474801_1_alg».proof.Defs
import proofs.«161042_j43276090474801_1_alg».proof.Proof.Gen.Kernel
import proofs.«161042_j43276090474801_1_alg».proof.Proof.Gen.KernelIdeal
import proofs.«161042_j43276090474801_1_alg».proof.Proof.Gen.ReferenceIdeal
import proofs.«161042_j43276090474801_1_alg».proof.Proof.Gen.Pre_finite_inputs
import proofs.«161042_j43276090474801_1_alg».proof.Proof.BitsRun
import proofs.«161042_j43276090474801_1_alg».proof.Proof.IdealResult
import proofs.«161042_j43276090474801_1_alg».proof.Proof.RefIsSpec
import proofs.«161042_j43276090474801_1_alg».proof.Proof.RefRun
import Idealize.ShloMosaic.Adequacy
import Idealize.ShloMosaic.Init

noncomputable section

namespace Cert.Proof

open Idealize.ShloMosaic Idealize.SL.Sem

/-- The word-level kernel runs to its end and leaves its arguments as launched. -/
theorem frame_kernel : Cert.frame_Kernel := fun m ρ _ => Cert.Kernel.Region.frame m ρ

/-- So does its idealization. -/
theorem frame_kernel_ideal : Cert.frame_KernelIdeal := fun m ρ _ => Cert.KernelIdeal.Region.frame m ρ

/-- The reference runs to its end and leaves its arguments as launched: its run, with the result forgotten. -/
theorem frame_reference : Cert.frame_ReferenceIdeal := fun m ρ _ =>
  (θ_run Cert.ReferenceIdeal.defs _ _).mono (fun _ h c => (h c).2) (Cert.RefBridge.run m ρ)

/-- The idealization rewrote nothing. -/
theorem preserves : Cert.preserves_Kernel_KernelIdeal := trivial

/-- From memories agreeing on the arguments both idealized programs run, and both results are the specification's
    result of those arguments. -/
theorem algebraic : Cert.algebraic_KernelIdeal_ReferenceIdeal := by
  intro m ρ m' ρ' _ hagree
  refine ⟨fun c => Cert.KernelIdeal.Result.expected m c, Cert.KernelIdeal.Result.run m ρ, ?_⟩
  refine (θ_run Cert.ReferenceIdeal.defs _ _).mono (fun _ h c => ⟨(h c).1.trans ?_, (h c).2⟩) (Cert.RefBridge.run m' ρ')
  obtain ⟨a0, a1, a2, a3, a4, a5, a6, a7, a8, a9, a10, a11, a12, a13, a14⟩ := hagree c
  rw [Cert.RefBridge.reference_is_spec, a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
